-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S128x4096 : Shape := ⟨2, ![128, 4096]⟩
abbrev S8x4096 : Shape := ⟨2, ![8, 4096]⟩
abbrev S1x4096 : Shape := ⟨2, ![1, 4096]⟩
abbrev S127x4096 : Shape := ⟨2, ![127, 4096]⟩
abbrev S128x1 : Shape := ⟨2, ![128, 1]⟩
abbrev S128x4095 : Shape := ⟨2, ![128, 4095]⟩

abbrev nBuf : Space → Nat
  | .hbm => 8
  | .vmem => 20
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  slices_S128x4096_o1_0_S1x4096 : S128x4096.Slices ![1, 0] S1x4096
  inb_S8x4096_S1x4096_7_0 : ∀ a, (![7, 0] : Fin 2 → Nat) a + S1x4096.size a ≤ S8x4096.size a
  h_S1x4096 : 0 < S1x4096.numel
  slices_S128x4096_o0_0_S127x4096 : S128x4096.Slices ![0, 0] S127x4096
  concatenates_S1x4096_S127x4096_S128x4096_d0 : Shape.Concatenates [S1x4096, S127x4096] S128x4096 0
  slices_S128x4096_o126_0_S1x4096 : S128x4096.Slices ![126, 0] S1x4096
  inb_S8x4096_S1x4096_0_0 : ∀ a, (![0, 0] : Fin 2 → Nat) a + S1x4096.size a ≤ S8x4096.size a
  slices_S128x4096_o1_0_S127x4096 : S128x4096.Slices ![1, 0] S127x4096
  concatenates_S127x4096_S1x4096_S128x4096_d0 : Shape.Concatenates [S127x4096, S1x4096] S128x4096 0
  slices_S128x4096_o0_1_S128x1 : S128x4096.Slices ![0, 1] S128x1
  slices_S128x4096_o0_0_S128x4095 : S128x4096.Slices ![0, 0] S128x4095
  concatenates_S128x1_S128x4095_S128x4096_d1 : Shape.Concatenates [S128x1, S128x4095] S128x4096 1
  slices_S128x4096_o0_1_S128x4095 : S128x4096.Slices ![0, 1] S128x4095
  slices_S128x4096_o0_4094_S128x1 : S128x4096.Slices ![0, 4094] S128x1
  concatenates_S128x4095_S128x1_S128x4096_d1 : Shape.Concatenates [S128x4095, S128x1] S128x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S4096x4096.size a
  hwx0_1 : ∀ i : grid0.Coords, EltTy.bits .f32 = 32 ∨ (Rect.block (s := S4096x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S4096x4096.size a
  hwx0_2 : ∀ i : grid0.Coords, EltTy.bits .f32 = 32 ∨ (Rect.block (s := S4096x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .f32 = 32 ∨ (Rect.block (s := S4096x4096) S128x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S4096x4096.size a
  hwx0_9 : ∀ i : grid0.Coords, EltTy.bits .f32 = 32 ∨ (Rect.block (s := S4096x4096) S128x4096.size (cc0_transform_9 i) (hinb0_9 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S128x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S128x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S128x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_3) S128x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S1x4096 : Shape := ⟨2, ![1, 4096]⟩
abbrev S4097x4096 : Shape := ⟨2, ![4097, 4096]⟩
abbrev S4098x4096 : Shape := ⟨2, ![4098, 4096]⟩
abbrev S4098x1 : Shape := ⟨2, ![4098, 1]⟩
abbrev S4098x4097 : Shape := ⟨2, ![4098, 4097]⟩
abbrev S4098x4098 : Shape := ⟨2, ![4098, 4098]⟩

abbrev nBuf : Space → Nat
  | .hbm => 81
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .i32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S4097x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4098x4096, .f32⟩
  | .hbm, ⟨13, _⟩ => ⟨S4098x1, .f32⟩
  | .hbm, ⟨14, _⟩ => ⟨S4098x1, .f32⟩
  | .hbm, ⟨15, _⟩ => ⟨S4098x1, .f32⟩
  | .hbm, ⟨16, _⟩ => ⟨S4098x4097, .f32⟩
  | .hbm, ⟨17, _⟩ => ⟨S4098x1, .f32⟩
  | .hbm, ⟨18, _⟩ => ⟨S4098x1, .f32⟩
  | .hbm, ⟨19, _⟩ => ⟨S4098x1, .f32⟩
  | .hbm, ⟨20, _⟩ => ⟨S4098x4098, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_call1_cst : Ref sig .tc := ⟨.hbm, 55, rfl⟩
abbrev main_call1_v0 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_7 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_call2_cst : Ref sig .tc := ⟨.hbm, 66, rfl⟩
abbrev main_call2_v0 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_10 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  slices_S4096x4096_S1x4096_0_0 : S4096x4096.Slices ![0, 0] S1x4096
  slices_S4096x4096_S1x4096_1_0 : S4096x4096.Slices ![1, 0] S1x4096
  concatenates_S1x4096_S4096x4096_S4097x4096_d0 : Shape.Concatenates [S1x4096, S4096x4096] S4097x4096 0
  slices_S4097x4096_S1x4096_4096_0 : S4097x4096.Slices ![4096, 0] S1x4096
  slices_S4097x4096_S1x4096_4095_0 : S4097x4096.Slices ![4095, 0] S1x4096
  concatenates_S4097x4096_S1x4096_S4098x4096_d0 : Shape.Concatenates [S4097x4096, S1x4096] S4098x4096 0
  slices_S4098x4096_S4098x1_0_0 : S4098x4096.Slices ![0, 0] S4098x1
  slices_S4098x4096_S4098x1_0_1 : S4098x4096.Slices ![0, 1] S4098x1
  concatenates_S4098x1_S4098x4096_S4098x4097_d1 : Shape.Concatenates [S4098x1, S4098x4096] S4098x4097 1
  slices_S4098x4097_S4098x1_0_4096 : S4098x4097.Slices ![0, 4096] S4098x1
  slices_S4098x4097_S4098x1_0_4095 : S4098x4097.Slices ![0, 4095] S4098x1
  concatenates_S4098x4097_S4098x1_S4098x4098_d1 : Shape.Concatenates [S4098x4097, S4098x1] S4098x4098 1
  slices_S4098x4098_S4096x4096_2_1 : S4098x4098.Slices ![2, 1] S4096x4096
  slices_S4098x4098_S4096x4096_0_1 : S4098x4098.Slices ![0, 1] S4096x4096
  slices_S4098x4098_S4096x4096_1_2 : S4098x4098.Slices ![1, 2] S4096x4096
  slices_S4098x4098_S4096x4096_1_0 : S4098x4098.Slices ![1, 0] S4096x4096
  bcast_S_S4096x4096 : S_.BroadcastsInDim S4096x4096 (![] : Fin 0 → Fin S4096x4096.rank)

variable [Facts₀]

class Facts : Prop extends Facts₀ where

variable [Facts]
-- ==== Proof.K.Body.lean ====
/-
  What the kernel body leaves in its four output buffers, and the body's triple.

  The body reads six input buffers — the centre block, the row above it (row 7 of an eight-row block), the row
  below it (row 0 of an eight-row block) and three state blocks — and overwrites each of its four output buffers
  whole, once. So each output buffer ends at the canonical contents of a single covering write, whose payload is
  a pure function of the six input blocks and of the grid point.
-/
import proofs.«119271_j59382217834966_2_alg».proof.Proof.Gen.Kernel.Launch
import proofs.«119271_j59382217834966_2_alg».proof.Proof.Gen.Kernel.Skeleton
import proofs.«119271_j59382217834966_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole 128-row block. -/
abbrev rW : Rect S128x4096 := Rect.unit (s := S128x4096) ![0, 0] S128x4096.size inb_S128x4096_S128x4096_0_0
/-- The last row of an eight-row block: the row just above the centre block. -/
abbrev rN : Rect S8x4096 := Rect.unit (s := S8x4096) ![7, 0] S1x4096.size inb_S8x4096_S1x4096_7_0
/-- The first row of an eight-row block: the row just below the centre block. -/
abbrev rS : Rect S8x4096 := Rect.unit (s := S8x4096) ![0, 0] S1x4096.size inb_S8x4096_S1x4096_0_0

/-! ## What the body leaves in each output buffer -/

/-- The update term common to the four outputs, from the six input blocks at grid point `i`. -/
def pre (i : grid0.Coords) (x0 : Vec F S128x4096 .f32) (x1 x2 : Vec F S8x4096 .f32) (x3 x4 x5 : Vec F S128x4096 .f32) :
    FVec F S128x4096 .f32 :=
  Gen.k0_pay5 i (View.ld x0 rW) (View.ld x3 rW) (View.ld x4 rW) (View.ld x5 rW) (View.ld x1 rN) (View.ld x2 rS)

/-- Output 0's buffer after the body: its one store, covering. -/
def out0_6 (i : grid0.Coords) (x0 : Vec F S128x4096 .f32) (x1 x2 : Vec F S8x4096 .f32) (x3 x4 x5 : Vec F S128x4096 .f32) :
    Vec F S128x4096 .f32 :=
  View.canon [⟨rW, Gen.k0_pay1 (View.ld x0 rW) (pre i x0 x1 x2 x3 x4 x5) (Scalar.ofBits .f32 0x3DCCCCCD#32)⟩]
/-- Output 1's. -/
def out0_7 (i : grid0.Coords) (x0 : Vec F S128x4096 .f32) (x1 x2 : Vec F S8x4096 .f32) (x3 x4 x5 : Vec F S128x4096 .f32) :
    Vec F S128x4096 .f32 :=
  View.canon [⟨rW, Gen.k0_pay2 (View.ld x0 rW) (View.ld x3 rW) (pre i x0 x1 x2 x3 x4 x5) (Scalar.ofBits .f32 0x3DCCCCCD#32)⟩]
/-- Output 2's. -/
def out0_8 (i : grid0.Coords) (x0 : Vec F S128x4096 .f32) (x1 x2 : Vec F S8x4096 .f32) (x3 x4 x5 : Vec F S128x4096 .f32) :
    Vec F S128x4096 .f32 :=
  View.canon [⟨rW, Gen.k0_pay3 (View.ld x0 rW) (View.ld x4 rW) (pre i x0 x1 x2 x3 x4 x5) (Scalar.ofBits .f32 0x3DCCCCCD#32)⟩]
/-- Output 3's. -/
def out0_9 (i : grid0.Coords) (x0 : Vec F S128x4096 .f32) (x1 x2 : Vec F S8x4096 .f32) (x3 x4 x5 : Vec F S128x4096 .f32) :
    Vec F S128x4096 .f32 :=
  View.canon [⟨rW, Gen.k0_pay4 (View.ld x0 rW) (View.ld x5 rW) (pre i x0 x1 x2 x3 x4 x5) (Scalar.ofBits .f32 0x3DCCCCCD#32)⟩]

/-- A single store through the whole-block rectangle covers the buffer. -/
theorem coverW (p0 : Vec F S128x4096 .f32) (y : S128x4096.Idx) :
    ∃ pc ∈ ([⟨rW, p0⟩] : List (View.Piece (Elt F) S128x4096 .f32)), y ∈ pc.1.set :=
  View.cover_of_tiled [⟨rW, p0⟩] S128x4096.size (by rfl) y

/-! ## The body's triple -/

set_option maxHeartbeats 1000000 in
/-- On whole staging memrefs — the six inputs' at read contents `x·`, the four outputs' at anything — the body at grid
    point `i` runs to the continuation holding the inputs' as they were and each output's at `out0_·` of the inputs'. -/
theorem sound_kernel (c : Dev nD) (E : Set ℕ) (i : grid0.Coords)
    (arg1 : Memref sig .tc .vmem S128x4096 .f32) (harg1 : arg1.IsWhole) (arg2 : Memref sig .tc .vmem S8x4096 .f32) (harg2 : arg2.IsWhole)
    (arg3 : Memref sig .tc .vmem S8x4096 .f32) (harg3 : arg3.IsWhole) (arg4 : Memref sig .tc .vmem S128x4096 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x4096 .f32) (harg8 : arg8.IsWhole)
    (arg9 : Memref sig .tc .vmem S128x4096 .f32) (harg9 : arg9.IsWhole) (arg10 : Memref sig .tc .vmem S128x4096 .f32) (harg10 : arg10.IsWhole)
    (x0 : Vec F S128x4096 .f32) (x1 x2 : Vec F S8x4096 .f32) (x3 x4 x5 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x0 x1 x2 x3 x4 x5) ∗ owns (c : Thread nD τ) arg8 fullShare (out0_7 i x0 x1 x2 x3 x4 x5)
            ∗ owns (c : Thread nD τ) arg9 fullShare (out0_8 i x0 x1 x2 x3 x4 x5) ∗ owns (c : Thread nD τ) arg10 fullShare (out0_9 i x0 x1 x2 x3 x4 x5)) -∗ K ⟨⟩))
      ⊢ wp frame (wpE (defs₀ (F := F)) Variants.none c none) E
          (cc0__bio_kernel i arg1 harg1 arg2 harg2 arg3 harg3 arg4 harg4 arg5 harg5 arg6 harg6 arg7 harg7 arg8 harg8 arg9 harg9 arg10 harg10) K := by
  simp only [cc0__bio_kernel_eq_skeleton]; unfold cc0__bio_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverW _)
  isplitl [H7]
  · iexists _; isplitr
    swap; · iexact H7
    ipureintro
    exact View.read_writes_eq_canon _ _ _ (coverW _)
  isplitl [H8]
  · iexists _; isplitr
    swap; · iexact H8
    ipureintro
    exact View.read_writes_eq_canon _ _ _ (coverW _)
  iexists _; isplitr
  swap; · iexact H9
  ipureintro
  exact View.read_writes_eq_canon _ _ _ (coverW _)

end Cert.Kernel.Hand

end
-- ==== Proof.K.Dats.lean ====
/-
  The proof data of the one pipeline: the arrays as the region finds them, what each staging buffer holds before
  and after the body at every grid point, and the body obligation at a generic point.

  Every input window is fetched at every point and no window is cut, so an input's current staging buffer holds its
  block of the array whenever the body runs; the body leaves the inputs' buffers as they were and each output's at
  the canonical contents of its one covering store (the body's triple).
-/
import proofs.«119271_j59382217834966_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. That windows 0, 1 and 2 read one
    array plays no part: the statement is of one window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. That windows 0, 1 and 2 read one
    array plays no part: the statement is of one window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. That windows 0, 1 and 2 read one
    array plays no part: the statement is of one window. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. That windows 0, 1 and 2 read one
    array plays no part: the statement is of one window. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. That windows 0, 1 and 2 read one
    array plays no part: the statement is of one window. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. That windows 0, 1 and 2 read one
    array plays no part: the statement is of one window. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`. The arrays: as the region finds them. After the body at point `t`: each input's buffer
    at its block, each output's at `out0_·` of the six input blocks. The invariant: the scoped buffers the pipeline does
    not stage. Nothing owed. The shares: the first array is read through three windows, which hold it at three
    fractions making the whole (a half, and the two halves of the other half); every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
    | ⟨7, _⟩ => out0_7 (grid0.coords t) (iblk m c 0 t) (iblk m c 1 t) (iblk m c 2 t) (iblk m c 3 t) (iblk m c 4 t) (iblk m c 5 t)
    | ⟨8, _⟩ => out0_8 (grid0.coords t) (iblk m c 0 t) (iblk m c 1 t) (iblk m c 2 t) (iblk m c 3 t) (iblk m c 4 t) (iblk m c 5 t)
    | ⟨9, _⟩ => out0_9 (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (grid0.coords t) (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibFrameShared.lean ====
/-
  The frame run of a one-region pipeline whose INPUT windows may share an array.

  A pallas_call may be handed one array through several input windows (the same matrix read at two different
  block offsets, say). The pipeline then holds that array once per window, each at a fraction of the full share,
  and the fractions together make the whole. Everything else is as for a kernel whose arrays are distinct: the
  kernel names no semaphore of its own, keeps nothing between grid points beyond the scoped buffers the pipeline does
  not stage, and @main reaches the region holding the unscoped buffers at contents `V`.

  The statement: from the body obligation at every point, and from HOW the distinct buffers behind the arrays,
  each whole at the full share, are dealt among the windows (`hsplit`), every weakly fair execution terminates
  with each window's array at the contents the proof data computes (`Dat.arrAt … N`) and every unscoped buffer that is
  no window's array as the region found it.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run, the arrays' full shares dealt among the windows by `hsplit`. The invariant between points is
    the scoped buffers the pipeline does not stage, at any contents (`hΦ`); the generator register is let go. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  refine θ_run_region_noSem_shared cfgs dats () hinj p hw emb₁ defs₀ 𝒱₀ m g main hbody hne harr hstage howed
    (initOf (cells cfgs hinj) (launchToks cfgs hinj)) .rfl V hmain hsplit
    (fun _ => (BI.emp : sProp 𝕄)) (fun _ => (BI.emp : sProp 𝕄))
    (fun c => unscopedRest (Ix := Unit) (Name := ℕ) (U := UR sig nD τ) (Lvl := ℕ) (cfgs p).spec c (V c))
    (fun c => by iintro H; isplitr; · iempintro
                 iexact H)
    (fun c => by rw [hΦ]; iintro ⟨-, H⟩; iexact H)
    (fun c => by rw [hΦ]; iintro H; isplitr; · iempintro
                 iexact H)
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

/-- The pipeline's `arrays` are whole-buffer points-tos, each at its window's own share, when every window's array
    is a whole buffer: the library's `arrays_eq` without the hypothesis that every share is the full one. -/
theorem arrays_eq_shares {cfg : Cfg sig Λ₀} {c : Dev nD} (dat : Dat τ Val Unit ℕ (UR sig nD τ) ℕ cfg c)
    (harr : ∀ w, (cfg.spec w).arr.IsWhole)
    (F : (w : Fin cfg.W) → Buf Val ((cfg.win w).arr.view.loc (c.tc : Thread nD τ))) :
    dat.arrays F = bigSep Finset.univ fun w => (((c.tc : Thread nD τ).loc (arrRef cfg.spec w)) ↦{dat.share w} F w : sProp 𝕄) := by
  unfold Dat.arrays
  exact Idealize.SL.BI.bigSep_congr fun w _ => by rw [(harr w).set_eq_univ]

end Idealize.ShloMosaic.Pipeline.SharedFrame

end
-- ==== Proof.K.Split.lean ====
/-
  How the eight distinct buffers behind the ten windows' arrays are dealt among the windows.

  The pipeline holds each window's array at the window's own share. Windows 0, 1 and 2 read one array; its whole
  points-to, held at the full share when the region is entered, splits along the share into a half and the two
  halves of the other half, one for each of the three windows. Every other array is one window's alone and is
  handed over whole.
-/
import proofs.«119271_j59382217834966_2_alg».proof.Proof.K.Dats
import proofs.«119271_j59382217834966_2_alg».proof.Proof.LibFrameShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the windows' arrays, one by one. -/
theorem arrBufs_chain (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_arg3) ↦{fullShare} V m c main_arg3)
          ∗ (((c.tc : Thread nD τ).loc main_v0_0) ↦{fullShare} V m c main_v0_0)
          ∗ (((c.tc : Thread nD τ).loc main_v0_1) ↦{fullShare} V m c main_v0_1)
          ∗ (((c.tc : Thread nD τ).loc main_v0_2) ↦{fullShare} V m c main_v0_2)
          ∗ (((c.tc : Thread nD τ).loc main_v0_3) ↦{fullShare} V m c main_v0_3)) := by
  unfold Pipeline.arrBufs
  exact bigSep_eq_bigSepL_of_eq [main_arg0, main_arg1, main_arg2, main_arg3, main_v0_0, main_v0_1, main_v0_2, main_v0_3] (by decide) (by decide) _

/-- The share each window holds its array at. -/
theorem share0_0 (c : Dev nD) : (dats m 0 c).share 0 = fullShare.left := rfl
theorem share0_1 (c : Dev nD) : (dats m 0 c).share 1 = fullShare.right.left := rfl
theorem share0_2 (c : Dev nD) : (dats m 0 c).share 2 = fullShare.right.right := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl
theorem share0_6 (c : Dev nD) : (dats m 0 c).share 6 = fullShare := rfl
theorem share0_7 (c : Dev nD) : (dats m 0 c).share 7 = fullShare := rfl
theorem share0_8 (c : Dev nD) : (dats m 0 c).share 8 = fullShare := rfl
theorem share0_9 (c : Dev nD) : (dats m 0 c).share 9 = fullShare := rfl

/-- The pipeline's arrays at entry, window by window: each window's array at the window's share, at the region-entry
    contents. -/
theorem arrays_chain (c : Dev nD) :
    (dats m 0 c).arrays ((dats m 0 c).arrAt · 0)
      = iprop((((c.tc : Thread nD τ).loc main_arg0) ↦{fullShare.left} V m c main_arg0)
          ∗ (((c.tc : Thread nD τ).loc main_arg0) ↦{fullShare.right.left} V m c main_arg0)
          ∗ (((c.tc : Thread nD τ).loc main_arg0) ↦{fullShare.right.right} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_arg3) ↦{fullShare} V m c main_arg3)
          ∗ (((c.tc : Thread nD τ).loc main_v0_0) ↦{fullShare} V m c main_v0_0)
          ∗ (((c.tc : Thread nD τ).loc main_v0_1) ↦{fullShare} V m c main_v0_1)
          ∗ (((c.tc : Thread nD τ).loc main_v0_2) ↦{fullShare} V m c main_v0_2)
          ∗ (((c.tc : Thread nD τ).loc main_v0_3) ↦{fullShare} V m c main_v0_3)) := by
  rw [Pipeline.SharedFrame.arrays_eq_shares (dats m 0 c) arr_whole0, bigSep_W0,
    share0_0, share0_1, share0_2, share0_3, share0_4, share0_5, share0_6, share0_7, share0_8, share0_9]
  rfl

/-- The deal: the first array's whole points-to split in three along the share, the others handed over as they are. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [arrays_chain]
  refine (Entails.of_eq (arrBufs_chain m c)).trans ?_
  iintro ⟨H0, H1, H2, H3, H4, H5, H6, H7⟩
  ihave Hs := (pointsTo_share (PosShare.mem_left_op_right fullShare)).1 $$ H0
  icases Hs with ⟨Ha, Hb⟩
  ihave Hs' := (pointsTo_share (PosShare.mem_left_op_right fullShare.right)).1 $$ Hb
  icases Hs' with ⟨Hb, Hc⟩
  isplitl [Ha]; · iexact Ha
  isplitl [Hb]; · iexact Hb
  isplitl [Hc]; · iexact Hc
  isplitl [H1]; · iexact H1
  isplitl [H2]; · iexact H2
  isplitl [H3]; · iexact H3
  isplitl [H4]; · iexact H4
  isplitl [H5]; · iexact H5
  isplitl [H6]; · iexact H6
  iexact H7

end Cert.Kernel.Hand

end
-- ==== Proof.K.Frame.lean ====
/-
  The frame run of the kernel and the frame claim.

  The kernel's call reads its first argument through three input windows, so the launch is the shared-array one: the
  pipeline is entered with the eight distinct buffers behind the ten windows' arrays, and the first is dealt to its
  three windows at fractions of the full share. From the body obligation at every grid point, every weakly fair
  execution of @main terminates with every window's array at what the proof data computes; an input array is never
  written, so each of the four argument arrays ends as launched.
-/
import proofs.«119271_j59382217834966_2_alg».proof.Proof.K.Split

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- At the compiled mesh, for any values, from any memory with zero counters: every weakly fair execution of @main on
    the TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- info: 'Cert.Kernel.Hand.run_main' depends on axioms: [propext, Classical.choice, Quot.sound] -/
#guard_msgs in #print axioms run_main

/-! ## The frame -/

/-- The four argument arrays end as launched: the first read off input window 0, the others off windows 3, 4 and 5 —
    an input window's array is at its entry contents after every write-back, and those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans rfl)),
     ((h c).1 3).trans (((dats m 0 c).arrAt_in 3 rfl _).trans ((A_eq m c 3).trans rfl)),
     ((h c).1 4).trans (((dats m 0 c).arrAt_in 4 rfl _).trans ((A_eq m c 4).trans rfl)),
     ((h c).1 5).trans (((dats m 0 c).arrAt_in 5 rfl _).trans ((A_eq m c 5).trans rfl))⟩) (run_main m ρ)

end Cert.Kernel.Hand

end
-- ==== Proof.Stencil.lean ====
/-
  The specification: one step of the bioelectric field update on a 4096 × 4096 grid, cell by cell, over the
  extended reals.

  The voltage's five-point Laplacian takes, for a cell on the grid's edge, the neighbour that would lie outside the
  grid to be the neighbour on the other side (the grid is mirrored about its edge rows and columns): `prev 0 = 1`,
  `next 4095 = 4094`. The new voltage is

      v' = tanh (v + 0.1 · (0.5 · (v↓ + v↑ + v→ + v← − 4 v) + 0.1 · s − 0.05 · p + 0.08 · q)),

  the sum taken in exactly that order, and the three ion fields relax towards functions of it:

      s' = 0.95 · s + 0.05 · max (v', 0),   p' = 0.95 · p + 0.05 · max (−v', 0),   q' = 0.95 · q + 0.05 · |v'|.

  Every constant is the real number its single-precision word denotes; the same words stand on both sides of the
  claim, so none is ever evaluated.
-/
import Idealize.ShloMosaic.PureOps.Ideal
import Idealize.ShloMosaic.PureOps.Ideal.Laws
import Idealize.ShloMosaic.Lib.ValueIdx

noncomputable section

namespace Cert.Stencil

open Idealize.ShloMosaic Idealize.ShloMosaic.ValueIdx

/-- A 4096 × 4096 array of extended reals. -/
abbrev Arr := FVec Ideal (⟨2, ![4096, 4096]⟩ : Shape) .f32

/-- The constants, as the extended reals their f32 words denote. -/
def c4 : EReal := Ideal.ofBits .f32 0x40800000#32
def cHalf : EReal := Ideal.ofBits .f32 0x3F000000#32
def cTenth : EReal := Ideal.ofBits .f32 0x3DCCCCCD#32
def cTwentieth : EReal := Ideal.ofBits .f32 0x3D4CCCCD#32
def cEight : EReal := Ideal.ofBits .f32 0x3DA3D70A#32
def cKeep : EReal := Ideal.ofBits .f32 0x3F733333#32
def cZero : EReal := Ideal.ofBits .f32 0x00000000#32

/-- The neighbour before `k` along an axis, mirrored at the edge: before 0 comes 1. -/
def prev (k : Fin 4096) : Fin 4096 := ⟨if k.val = 0 then 1 else k.val - 1, by split <;> omega⟩

/-- The neighbour after `k`, mirrored at the edge: after 4095 comes 4094. -/
def next (k : Fin 4096) : Fin 4096 := ⟨if k.val = 4095 then 4094 else k.val + 1, by split <;> omega⟩

theorem prev_val (k : Fin 4096) : (prev k).val = if k.val = 0 then 1 else k.val - 1 := rfl
theorem next_val (k : Fin 4096) : (next k).val = if k.val = 4095 then 4094 else k.val + 1 := rfl

/-- The five-point Laplacian at cell (r, c): below + above + right + left − 4 · centre, in that order. -/
def lapAt (v : Arr) (r c : Fin 4096) : EReal :=
  v (ix2 (next r) c) + v (ix2 (prev r) c) + v (ix2 r (next c)) + v (ix2 r (prev c)) - c4 * v (ix2 r c)

/-- The new voltage at (r, c). -/
def voltAt (v s p q : Arr) (r c : Fin 4096) : EReal :=
  Ideal.tanh (v (ix2 r c)
    + cTenth * (cHalf * lapAt v r c + cTenth * s (ix2 r c) - cTwentieth * p (ix2 r c) + cEight * q (ix2 r c)))

/-- The new sodium, potassium and calcium at (r, c). -/
def sodAt (v s p q : Arr) (r c : Fin 4096) : EReal := s (ix2 r c) * cKeep + cTwentieth * max (voltAt v s p q r c) cZero
def potAt (v s p q : Arr) (r c : Fin 4096) : EReal := p (ix2 r c) * cKeep + cTwentieth * max (-(voltAt v s p q r c)) cZero
def calAt (v s p q : Arr) (r c : Fin 4096) : EReal :=
  q (ix2 r c) * cKeep + cTwentieth * max (voltAt v s p q r c) (-(voltAt v s p q r c))

/-- The four result arrays. -/
def newV (v s p q : Arr) : Arr := fun j => voltAt v s p q (j 0) (j 1)
def newS (v s p q : Arr) : Arr := fun j => sodAt v s p q (j 0) (j 1)
def newP (v s p q : Arr) : Arr := fun j => potAt v s p q (j 0) (j 1)
def newQ (v s p q : Arr) : Arr := fun j => calAt v s p q (j 0) (j 1)

theorem newV_apply (v s p q : Arr) (r c : Fin 4096) : newV v s p q (ix2 r c) = voltAt v s p q r c := rfl
theorem newS_apply (v s p q : Arr) (r c : Fin 4096) : newS v s p q (ix2 r c) = sodAt v s p q r c := rfl
theorem newP_apply (v s p q : Arr) (r c : Fin 4096) : newP v s p q (ix2 r c) = potAt v s p q r c := rfl
theorem newQ_apply (v s p q : Arr) (r c : Fin 4096) : newQ v s p q (ix2 r c) = calAt v s p q r c := rfl

/-- The zero word denotes zero. -/
theorem cZero_eq : cZero = 0 := Ideal.ofBits_zero_f32

end Cert.Stencil

end
-- ==== Proof.KI.Cell.lean ====
/-
  The kernel body's arithmetic at one cell of a 128-row tile.

  The body holds a tile `v0` of 128 rows of the voltage (all 4096 columns), the row just above the tile (`v6`, one row)
  and the row just below it (`v12`, one row). The four neighbours of a cell are read off shifted copies of the tile:
  the tile moved down by one row with the row above put on top — at the grid's first tile the tile's own row 1, the
  mirror image —, moved up by one row with the row below put underneath — at the last tile the tile's own row 126 —,
  and moved by one column either way with column 1, respectively column 4094, mirrored in. Read at a cell (p, q) of
  the tile these are plain case distinctions on p and q; the rest of the body is pointwise.
-/
import proofs.«119271_j59382217834966_2_alg».proof.Proof.Gen.KernelIdeal.Skeleton
import proofs.«119271_j59382217834966_2_alg».proof.Proof.Stencil
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cell

open Cert.KernelIdeal Idealize.ShloMosaic Idealize.ShloMosaic.ValueIdx Cert.Stencil

/-! ## The four shifted copies of the tile, read at a cell -/

/-- The cell below (p, q): the tile's next row, and under the tile's last row either the tile's row 126 (the
    mirror image, when `b` is set) or the row below the tile. -/
theorem south_apply (b : BitVec 1) (v0 : Vec Ideal S128x4096 .f32) (v12 : Vec Ideal S1x4096 .f32)
    (hs : S128x4096.Slices ![1, 0] S127x4096) (hs' : S128x4096.Slices ![126, 0] S1x4096)
    (hc : Shape.Concatenates [S127x4096, S1x4096] S128x4096 0) (p : Fin 128) (q : Fin 4096) :
    concatenate S128x4096 0 [⟨S127x4096, extractStridedSlice S127x4096 ![1, 0] v0 hs⟩,
        ⟨S1x4096, Scalar.select b (extractStridedSlice S1x4096 ![126, 0] v0 hs') v12⟩] hc (ix2 p q)
      = if h : p.val < 127 then v0 (ix2 (⟨p.val + 1, by omega⟩ : Fin 128) q)
        else if b = 1#1 then v0 (ix2 (126 : Fin 128) q) else v12 (ix2 (0 : Fin 1) q) := by
  split
  · next h =>
    refine (concatenate_pair_apply_left (t := S128x4096) (s₁ := S127x4096) (s₂ := S1x4096) 0 _ _ hc (ix2 p q) rfl (ix2 (⟨p.val, h⟩ : Fin 127) q : S127x4096.Idx)
      (fun a => by match a with | ⟨0, _⟩ => rfl | ⟨1, _⟩ => rfl)).trans ?_
    exact slice2_axis0_apply 1 v0 hs ⟨p.val, h⟩ q ⟨p.val + 1, by omega⟩ (by show p.val + 1 = 1 + p.val; omega)
  · next h =>
    have hp : p.val = 127 := by have := p.isLt; omega
    refine (concatenate_pair_apply_right (t := S128x4096) (s₁ := S127x4096) (s₂ := S1x4096) 0 _ _ hc (ix2 p q) rfl rfl (ix2 (0 : Fin 1) q : S1x4096.Idx)
      (fun a ha => by match a with | ⟨0, _⟩ => exact absurd rfl ha | ⟨1, _⟩ => rfl)
      (by show 0 + 127 = p.val; omega)).trans ?_
    unfold Scalar.select
    by_cases hb : b = 1#1
    · have hb' : b = 1 := hb
      rw [if_pos hb, if_pos hb']; exact slice2_axis0_apply 126 v0 hs' 0 q 126 rfl
    · have hb' : ¬ b = 1 := hb
      rw [if_neg hb, if_neg hb']

/-- The cell above (p, q): the tile's previous row, and over the tile's first row either the tile's row 1 (the mirror
    image, when `b` is set) or the row above the tile. -/
theorem north_apply (b : BitVec 1) (v0 : Vec Ideal S128x4096 .f32) (v6 : Vec Ideal S1x4096 .f32)
    (hs : S128x4096.Slices ![1, 0] S1x4096) (hs' : S128x4096.Slices ![0, 0] S127x4096)
    (hc : Shape.Concatenates [S1x4096, S127x4096] S128x4096 0) (p : Fin 128) (q : Fin 4096) :
    concatenate S128x4096 0 [⟨S1x4096, Scalar.select b (extractStridedSlice S1x4096 ![1, 0] v0 hs) v6⟩,
        ⟨S127x4096, extractStridedSlice S127x4096 ![0, 0] v0 hs'⟩] hc (ix2 p q)
      = if h : p.val = 0 then (if b = 1#1 then v0 (ix2 (1 : Fin 128) q) else v6 (ix2 (0 : Fin 1) q))
        else v0 (ix2 (⟨p.val - 1, by omega⟩ : Fin 128) q) := by
  split
  · next h =>
    refine (concatenate_pair_apply_left (t := S128x4096) (s₁ := S1x4096) (s₂ := S127x4096) 0 _ _ hc (ix2 p q) rfl (ix2 (0 : Fin 1) q : S1x4096.Idx)
      (fun a => by match a with | ⟨0, _⟩ => (show 0 = p.val; omega) | ⟨1, _⟩ => rfl)).trans ?_
    unfold Scalar.select
    by_cases hb : b = 1#1
    · have hb' : b = 1 := hb
      rw [if_pos hb, if_pos hb']; exact slice2_axis0_apply 1 v0 hs 0 q 1 rfl
    · have hb' : ¬ b = 1 := hb
      rw [if_neg hb, if_neg hb']
  · next h =>
    have hp := p.isLt
    refine (concatenate_pair_apply_right (t := S128x4096) (s₁ := S1x4096) (s₂ := S127x4096) 0 _ _ hc (ix2 p q) rfl rfl (ix2 (⟨p.val - 1, by omega⟩ : Fin 127) q : S127x4096.Idx)
      (fun a ha => by match a with | ⟨0, _⟩ => exact absurd rfl ha | ⟨1, _⟩ => rfl)
      (by show p.val - 1 + 1 = p.val; omega)).trans ?_
    exact slice2_axis0_apply 0 v0 hs' ⟨p.val - 1, by omega⟩ q ⟨p.val - 1, by omega⟩ (by show p.val - 1 = 0 + (p.val - 1); omega)

/-- The cell right of (p, q): the next column, and right of the last column the mirror image, column 4094. -/
theorem east_apply (v0 : Vec Ideal S128x4096 .f32)
    (hs : S128x4096.Slices ![0, 1] S128x4095) (hs' : S128x4096.Slices ![0, 4094] S128x1)
    (hc : Shape.Concatenates [S128x4095, S128x1] S128x4096 1) (p : Fin 128) (q : Fin 4096) :
    concatenate S128x4096 1 [⟨S128x4095, extractStridedSlice S128x4095 ![0, 1] v0 hs⟩,
        ⟨S128x1, extractStridedSlice S128x1 ![0, 4094] v0 hs'⟩] hc (ix2 p q)
      = if h : q.val < 4095 then v0 (ix2 p (⟨q.val + 1, by omega⟩ : Fin 4096)) else v0 (ix2 p (4094 : Fin 4096)) := by
  split
  · next h =>
    refine (concatenate_pair_apply_left (t := S128x4096) (s₁ := S128x4095) (s₂ := S128x1) 1 _ _ hc (ix2 p q) rfl (ix2 p (⟨q.val, h⟩ : Fin 4095) : S128x4095.Idx)
      (fun a => by match a with | ⟨0, _⟩ => rfl | ⟨1, _⟩ => rfl)).trans ?_
    exact slice2_axis1_apply 1 v0 hs p ⟨q.val, h⟩ ⟨q.val + 1, by omega⟩ (by show q.val + 1 = 1 + q.val; omega)
  · next h =>
    have hq : q.val = 4095 := by have := q.isLt; omega
    refine (concatenate_pair_apply_right (t := S128x4096) (s₁ := S128x4095) (s₂ := S128x1) 1 _ _ hc (ix2 p q) rfl rfl (ix2 p (0 : Fin 1) : S128x1.Idx)
      (fun a ha => by match a with | ⟨0, _⟩ => rfl | ⟨1, _⟩ => exact absurd rfl ha)
      (by show 0 + 4095 = q.val; omega)).trans ?_
    exact slice2_axis1_apply 4094 v0 hs' p 0 4094 rfl

/-- The cell left of (p, q): the previous column, and left of column 0 the mirror image, column 1. -/
theorem west_apply (v0 : Vec Ideal S128x4096 .f32)
    (hs : S128x4096.Slices ![0, 1] S128x1) (hs' : S128x4096.Slices ![0, 0] S128x4095)
    (hc : Shape.Concatenates [S128x1, S128x4095] S128x4096 1) (p : Fin 128) (q : Fin 4096) :
    concatenate S128x4096 1 [⟨S128x1, extractStridedSlice S128x1 ![0, 1] v0 hs⟩,
        ⟨S128x4095, extractStridedSlice S128x4095 ![0, 0] v0 hs'⟩] hc (ix2 p q)
      = if h : q.val = 0 then v0 (ix2 p (1 : Fin 4096)) else v0 (ix2 p (⟨q.val - 1, by omega⟩ : Fin 4096)) := by
  split
  · next h =>
    refine (concatenate_pair_apply_left (t := S128x4096) (s₁ := S128x1) (s₂ := S128x4095) 1 _ _ hc (ix2 p q) rfl (ix2 p (0 : Fin 1) : S128x1.Idx)
      (fun a => by match a with | ⟨0, _⟩ => rfl | ⟨1, _⟩ => (show 0 = q.val; omega))).trans ?_
    exact slice2_axis1_apply 1 v0 hs p 0 1 rfl
  · next h =>
    have hq := q.isLt
    refine (concatenate_pair_apply_right (t := S128x4096) (s₁ := S128x1) (s₂ := S128x4095) 1 _ _ hc (ix2 p q) rfl rfl (ix2 p (⟨q.val - 1, by omega⟩ : Fin 4095) : S128x4095.Idx)
      (fun a ha => by match a with | ⟨0, _⟩ => rfl | ⟨1, _⟩ => exact absurd rfl ha)
      (by show q.val - 1 + 1 = q.val; omega)).trans ?_
    exact slice2_axis1_apply 0 v0 hs' p ⟨q.val - 1, by omega⟩ ⟨q.val - 1, by omega⟩ (by show q.val - 1 = 0 + (q.val - 1); omega)

/-! ## The body's five values at a cell -/

/-- Whether the grid coordinate is the first / the last tile, as the body's comparison bits. -/
theorem first_bit (i : grid0.Coords) : Scalar.cmpi .eq (BitVec.ofNat 32 (i 0).val) 0#32 = 1#1 ↔ (i 0).val = 0 := by
  have h : ∀ n : Fin 32, Scalar.cmpi .eq (BitVec.ofNat 32 n.val) 0#32 = 1#1 ↔ n.val = 0 := by decide
  exact h (i 0)

theorem last_bit (i : grid0.Coords) : Scalar.cmpi .eq (BitVec.ofNat 32 (i 0).val) 31#32 = 1#1 ↔ (i 0).val = 31 := by
  have h : ∀ n : Fin 32, Scalar.cmpi .eq (BitVec.ofNat 32 n.val) 31#32 = 1#1 ↔ n.val = 31 := by decide
  exact h (i 0)

/-- The neighbours of cell (p, q) as the body at grid coordinate `i` finds them. -/
def below (i : grid0.Coords) (v0 : Vec Ideal S128x4096 .f32) (v12 : Vec Ideal S1x4096 .f32) (p : Fin 128) (q : Fin 4096) : EReal :=
  if h : p.val < 127 then v0 (ix2 (⟨p.val + 1, by omega⟩ : Fin 128) q)
  else if (i 0).val = 31 then v0 (ix2 (126 : Fin 128) q) else v12 (ix2 (0 : Fin 1) q)
def above (i : grid0.Coords) (v0 : Vec Ideal S128x4096 .f32) (v6 : Vec Ideal S1x4096 .f32) (p : Fin 128) (q : Fin 4096) : EReal :=
  if h : p.val = 0 then (if (i 0).val = 0 then v0 (ix2 (1 : Fin 128) q) else v6 (ix2 (0 : Fin 1) q))
  else v0 (ix2 (⟨p.val - 1, by omega⟩ : Fin 128) q)
def rightOf (v0 : Vec Ideal S128x4096 .f32) (p : Fin 128) (q : Fin 4096) : EReal :=
  if h : q.val < 4095 then v0 (ix2 p (⟨q.val + 1, by omega⟩ : Fin 4096)) else v0 (ix2 p (4094 : Fin 4096))
def leftOf (v0 : Vec Ideal S128x4096 .f32) (p : Fin 128) (q : Fin 4096) : EReal :=
  if h : q.val = 0 then v0 (ix2 p (1 : Fin 4096)) else v0 (ix2 p (⟨q.val - 1, by omega⟩ : Fin 4096))

/-- The weighted sum under the tanh, at a cell. -/
theorem pay5_apply (i : grid0.Coords) (v0 v1 v2 v3 : Vec Ideal S128x4096 .f32) (v6 v12 : Vec Ideal S1x4096 .f32)
    (p : Fin 128) (q : Fin 4096) :
    Gen.k0_pay5 (F := Ideal) i v0 v1 v2 v3 v6 v12 (ix2 p q)
      = cHalf * (below i v0 v12 p q + above i v0 v6 p q + rightOf v0 p q + leftOf v0 p q - c4 * v0 (ix2 p q))
          + cTenth * v1 (ix2 p q) - cTwentieth * v2 (ix2 p q) + cEight * v3 (ix2 p q) := by
  unfold Gen.k0_pay5
  simp only [addf_apply, subf_apply, mulf_apply, broadcast_apply]
  rw [south_apply, north_apply, east_apply, west_apply]
  unfold below above rightOf leftOf
  simp only [first_bit, last_bit]
  rfl

end Cert.KernelIdeal.Cell

end
-- ==== Proof.KI.Body.lean ====
/-
  What the kernel body leaves in its four output buffers, and the body's triple.

  The body reads six input buffers — the centre block, the row above it (row 7 of an eight-row block), the row
  below it (row 0 of an eight-row block) and three state blocks — and overwrites each of its four output buffers
  whole, once. So each output buffer ends at the canonical contents of a single covering write, whose payload is
  a pure function of the six input blocks and of the grid point.
-/
import proofs.«119271_j59382217834966_2_alg».proof.Proof.Gen.KernelIdeal.Launch
import proofs.«119271_j59382217834966_2_alg».proof.Proof.Gen.KernelIdeal.Skeleton
import proofs.«119271_j59382217834966_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole 128-row block. -/
abbrev rW : Rect S128x4096 := Rect.unit (s := S128x4096) ![0, 0] S128x4096.size inb_S128x4096_S128x4096_0_0
/-- The last row of an eight-row block: the row just above the centre block. -/
abbrev rN : Rect S8x4096 := Rect.unit (s := S8x4096) ![7, 0] S1x4096.size inb_S8x4096_S1x4096_7_0
/-- The first row of an eight-row block: the row just below the centre block. -/
abbrev rS : Rect S8x4096 := Rect.unit (s := S8x4096) ![0, 0] S1x4096.size inb_S8x4096_S1x4096_0_0

/-! ## What the body leaves in each output buffer -/

/-- The update term common to the four outputs, from the six input blocks at grid point `i`. -/
def pre (i : grid0.Coords) (x0 : Vec F S128x4096 .f32) (x1 x2 : Vec F S8x4096 .f32) (x3 x4 x5 : Vec F S128x4096 .f32) :
    FVec F S128x4096 .f32 :=
  Gen.k0_pay5 i (View.ld x0 rW) (View.ld x3 rW) (View.ld x4 rW) (View.ld x5 rW) (View.ld x1 rN) (View.ld x2 rS)

/-- Output 0's buffer after the body: its one store, covering. -/
def out0_6 (i : grid0.Coords) (x0 : Vec F S128x4096 .f32) (x1 x2 : Vec F S8x4096 .f32) (x3 x4 x5 : Vec F S128x4096 .f32) :
    Vec F S128x4096 .f32 :=
  View.canon [⟨rW, Gen.k0_pay1 (View.ld x0 rW) (pre i x0 x1 x2 x3 x4 x5) (Scalar.ofBits .f32 0x3DCCCCCD#32)⟩]
/-- Output 1's. -/
def out0_7 (i : grid0.Coords) (x0 : Vec F S128x4096 .f32) (x1 x2 : Vec F S8x4096 .f32) (x3 x4 x5 : Vec F S128x4096 .f32) :
    Vec F S128x4096 .f32 :=
  View.canon [⟨rW, Gen.k0_pay2 (View.ld x0 rW) (View.ld x3 rW) (pre i x0 x1 x2 x3 x4 x5) (Scalar.ofBits .f32 0x3DCCCCCD#32)⟩]
/-- Output 2's. -/
def out0_8 (i : grid0.Coords) (x0 : Vec F S128x4096 .f32) (x1 x2 : Vec F S8x4096 .f32) (x3 x4 x5 : Vec F S128x4096 .f32) :
    Vec F S128x4096 .f32 :=
  View.canon [⟨rW, Gen.k0_pay3 (View.ld x0 rW) (View.ld x4 rW) (pre i x0 x1 x2 x3 x4 x5) (Scalar.ofBits .f32 0x3DCCCCCD#32)⟩]
/-- Output 3's. -/
def out0_9 (i : grid0.Coords) (x0 : Vec F S128x4096 .f32) (x1 x2 : Vec F S8x4096 .f32) (x3 x4 x5 : Vec F S128x4096 .f32) :
    Vec F S128x4096 .f32 :=
  View.canon [⟨rW, Gen.k0_pay4 (View.ld x0 rW) (View.ld x5 rW) (pre i x0 x1 x2 x3 x4 x5) (Scalar.ofBits .f32 0x3DCCCCCD#32)⟩]

/-- A single store through the whole-block rectangle covers the buffer. -/
theorem coverW (p0 : Vec F S128x4096 .f32) (y : S128x4096.Idx) :
    ∃ pc ∈ ([⟨rW, p0⟩] : List (View.Piece (Elt F) S128x4096 .f32)), y ∈ pc.1.set :=
  View.cover_of_tiled [⟨rW, p0⟩] S128x4096.size (by rfl) y

/-! ## The body's triple -/

set_option maxHeartbeats 1000000 in
/-- On whole staging memrefs — the six inputs' at read contents `x·`, the four outputs' at anything — the body at grid
    point `i` runs to the continuation holding the inputs' as they were and each output's at `out0_·` of the inputs'. -/
theorem sound_kernel (c : Dev nD) (E : Set ℕ) (i : grid0.Coords)
    (arg1 : Memref sig .tc .vmem S128x4096 .f32) (harg1 : arg1.IsWhole) (arg2 : Memref sig .tc .vmem S8x4096 .f32) (harg2 : arg2.IsWhole)
    (arg3 : Memref sig .tc .vmem S8x4096 .f32) (harg3 : arg3.IsWhole) (arg4 : Memref sig .tc .vmem S128x4096 .f32) (harg4 : arg4.IsWhole)
    (arg5 : Memref sig .tc .vmem S128x4096 .f32) (harg5 : arg5.IsWhole) (arg6 : Memref sig .tc .vmem S128x4096 .f32) (harg6 : arg6.IsWhole)
    (arg7 : Memref sig .tc .vmem S128x4096 .f32) (harg7 : arg7.IsWhole) (arg8 : Memref sig .tc .vmem S128x4096 .f32) (harg8 : arg8.IsWhole)
    (arg9 : Memref sig .tc .vmem S128x4096 .f32) (harg9 : arg9.IsWhole) (arg10 : Memref sig .tc .vmem S128x4096 .f32) (harg10 : arg10.IsWhole)
    (x0 : Vec F S128x4096 .f32) (x1 x2 : Vec F S8x4096 .f32) (x3 x4 x5 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 i x0 x1 x2 x3 x4 x5) ∗ owns (c : Thread nD τ) arg8 fullShare (out0_7 i x0 x1 x2 x3 x4 x5)
            ∗ owns (c : Thread nD τ) arg9 fullShare (out0_8 i x0 x1 x2 x3 x4 x5) ∗ owns (c : Thread nD τ) arg10 fullShare (out0_9 i x0 x1 x2 x3 x4 x5)) -∗ K ⟨⟩))
      ⊢ wp frame (wpE (defs₀ (F := F)) Variants.none c none) E
          (cc0__bio_kernel i arg1 harg1 arg2 harg2 arg3 harg3 arg4 harg4 arg5 harg5 arg6 harg6 arg7 harg7 arg8 harg8 arg9 harg9 arg10 harg10) K := by
  simp only [cc0__bio_kernel_eq_skeleton]; unfold cc0__bio_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverW _)
  isplitl [H7]
  · iexists _; isplitr
    swap; · iexact H7
    ipureintro
    exact View.read_writes_eq_canon _ _ _ (coverW _)
  isplitl [H8]
  · iexists _; isplitr
    swap; · iexact H8
    ipureintro
    exact View.read_writes_eq_canon _ _ _ (coverW _)
  iexists _; isplitr
  swap; · iexact H9
  ipureintro
  exact View.read_writes_eq_canon _ _ _ (coverW _)

end Cert.KernelIdeal.Hand

end
-- ==== Proof.KI.Tile.lean ====
/-
  One tile of the kernel against the specification.

  At grid point T the body holds rows 128 T … 128 T + 127 of the four fields, the eight-row block of the voltage that
  ends just above the tile (of which it reads the last row, row 128 T − 1) and the eight-row block that begins just
  below it (of which it reads the first row, row 128 (T + 1)); at the first and at the last tile the block is some
  other block of the array, and the body takes the mirror image from the tile itself instead. So the four neighbours
  the body finds for the tile's cell (p, q) are the specification's mirrored neighbours of the array's cell
  (128 T + p, q), and what the body stores there is the specification's value.
-/
import proofs.«119271_j59382217834966_2_alg».proof.Proof.KI.Cell
import proofs.«119271_j59382217834966_2_alg».proof.Proof.KI.Body

noncomputable section

namespace Cert.KernelIdeal.Tile

open Cert.KernelIdeal Cert.KernelIdeal.Hand Cert.KernelIdeal.Cell Idealize.ShloMosaic Idealize.ShloMosaic.ValueIdx Cert.Stencil

/-- The array index type of the four fields. -/
abbrev AIdx := (⟨2, ![4096, 4096]⟩ : Shape).Idx

/-- The six blocks the body loads at grid point `T` are the arrays' tiles there: each block entry is the array entry
    at the block's first row plus the entry's row, same column. -/
structure Tiles (T : Fin 32) (i : grid0.Coords) (x0 x3 x4 x5 : Vec Ideal S128x4096 .f32) (x1 x2 : Vec Ideal S8x4096 .f32)
    (A0 A1 A2 A3 : Arr) : Prop where
  hi : (i 0).val = T.val
  h0 : ∀ (y : S128x4096.Idx) (k : AIdx), (k 0).val = 128 * T.val + (y 0).val → (k 1).val = (y 1).val → x0 y = A0 k
  h3 : ∀ (y : S128x4096.Idx) (k : AIdx), (k 0).val = 128 * T.val + (y 0).val → (k 1).val = (y 1).val → x3 y = A1 k
  h4 : ∀ (y : S128x4096.Idx) (k : AIdx), (k 0).val = 128 * T.val + (y 0).val → (k 1).val = (y 1).val → x4 y = A2 k
  h5 : ∀ (y : S128x4096.Idx) (k : AIdx), (k 0).val = 128 * T.val + (y 0).val → (k 1).val = (y 1).val → x5 y = A3 k
  h1 : ∀ (y : S8x4096.Idx) (k : AIdx), (k 0).val = 8 * (if T.val = 0 then 0 else 16 * T.val - 1) + (y 0).val →
    (k 1).val = (y 1).val → x1 y = A0 k
  h2 : ∀ (y : S8x4096.Idx) (k : AIdx), (k 0).val = 8 * (if T.val = 31 then 511 else 16 * (T.val + 1)) + (y 0).val →
    (k 1).val = (y 1).val → x2 y = A0 k

theorem hz : (![0, 0] : Fin 2 → Nat) = fun _ => 0 := funext fun a => by fin_cases a <;> rfl

/-- Row 7 of an eight-row block, as the body loads it. -/
theorem ld_rN (x1 : Vec Ideal S8x4096 .f32) (q : Fin 4096) : View.ld x1 rN (ix2 (0 : Fin 1) q) = x1 (ix2 (7 : Fin 8) q) := by
  show x1 (rN.emb (ix2 (0 : Fin 1) q)) = x1 (ix2 (7 : Fin 8) q)
  refine congrArg x1 (funext fun a => Fin.ext ?_)
  match a with
  | ⟨0, _⟩ => rfl
  | ⟨1, _⟩ => show 0 + 1 * q.val = q.val; omega

/-- Row 0 of an eight-row block, as the body loads it. -/
theorem ld_rS (x2 : Vec Ideal S8x4096 .f32) (q : Fin 4096) : View.ld x2 rS (ix2 (0 : Fin 1) q) = x2 (ix2 (0 : Fin 8) q) := by
  show x2 (rS.emb (ix2 (0 : Fin 1) q)) = x2 (ix2 (0 : Fin 8) q)
  refine congrArg x2 (funext fun a => Fin.ext ?_)
  match a with
  | ⟨0, _⟩ => rfl
  | ⟨1, _⟩ => show 0 + 1 * q.val = q.val; omega

variable {T : Fin 32} {i : grid0.Coords} {x0 x3 x4 x5 : Vec Ideal S128x4096 .f32} {x1 x2 : Vec Ideal S8x4096 .f32}
  {A0 A1 A2 A3 : Arr}

/-- The cell below, as the body finds it, is the specification's. -/
theorem below_eq (H : Tiles T i x0 x3 x4 x5 x1 x2 A0 A1 A2 A3) (p : Fin 128) (q : Fin 4096) (R : Fin 4096)
    (hR : R.val = 128 * T.val + p.val) :
    below i x0 (View.ld x2 rS) p q = A0 (ix2 (next R) q) := by
  have hT := T.isLt; have hp := p.isLt
  unfold below
  split
  · next h => exact H.h0 _ _ (by show (next R).val = 128 * T.val + (p.val + 1); rw [next_val]; split <;> omega) rfl
  · next h =>
    split
    · next h31 =>
      have : T.val = 31 := by rw [← H.hi]; exact h31
      exact H.h0 _ _ (by show (next R).val = 128 * T.val + 126; rw [next_val]; split <;> omega) rfl
    · next h31 =>
      have : T.val ≠ 31 := by rw [← H.hi]; exact h31
      rw [ld_rS]
      exact H.h2 _ _ (by show (next R).val = 8 * (if T.val = 31 then 511 else 16 * (T.val + 1)) + 0; rw [next_val, if_neg this]; split <;> omega) rfl

/-- The cell above. -/
theorem above_eq (H : Tiles T i x0 x3 x4 x5 x1 x2 A0 A1 A2 A3) (p : Fin 128) (q : Fin 4096) (R : Fin 4096)
    (hR : R.val = 128 * T.val + p.val) :
    above i x0 (View.ld x1 rN) p q = A0 (ix2 (prev R) q) := by
  have hT := T.isLt; have hp := p.isLt
  unfold above
  split
  · next h =>
    split
    · next h0 =>
      have : T.val = 0 := by rw [← H.hi]; exact h0
      exact H.h0 _ _ (by show (prev R).val = 128 * T.val + 1; rw [prev_val]; split <;> omega) rfl
    · next h0 =>
      have : T.val ≠ 0 := by rw [← H.hi]; exact h0
      rw [ld_rN]
      exact H.h1 _ _ (by show (prev R).val = 8 * (if T.val = 0 then 0 else 16 * T.val - 1) + 7; rw [prev_val, if_neg this]; split <;> omega) rfl
  · next h => exact H.h0 _ _ (by show (prev R).val = 128 * T.val + (p.val - 1); rw [prev_val]; split <;> omega) rfl

/-- The cell to the right. -/
theorem right_eq (H : Tiles T i x0 x3 x4 x5 x1 x2 A0 A1 A2 A3) (p : Fin 128) (q : Fin 4096) (R : Fin 4096)
    (hR : R.val = 128 * T.val + p.val) :
    rightOf x0 p q = A0 (ix2 R (next q)) := by
  have hq := q.isLt
  unfold rightOf
  split
  · next h => exact H.h0 _ _ hR (by show (next q).val = q.val + 1; rw [next_val]; split <;> omega)
  · next h => exact H.h0 _ _ hR (by show (next q).val = 4094; rw [next_val]; split <;> omega)

/-- The cell to the left. -/
theorem left_eq (H : Tiles T i x0 x3 x4 x5 x1 x2 A0 A1 A2 A3) (p : Fin 128) (q : Fin 4096) (R : Fin 4096)
    (hR : R.val = 128 * T.val + p.val) :
    leftOf x0 p q = A0 (ix2 R (prev q)) := by
  have hq := q.isLt
  unfold leftOf
  split
  · next h => exact H.h0 _ _ hR (by show (prev q).val = 1; rw [prev_val]; split <;> omega)
  · next h => exact H.h0 _ _ hR (by show (prev q).val = q.val - 1; rw [prev_val]; split <;> omega)

/-- The constant 0.1 the body multiplies the weighted sum by. -/
abbrev w01 : Ideal .f32 := FloatOps.ofBits (F := Ideal) .f32 0x3DCCCCCD#32

/-- The new voltage the body stores at the tile's cell (p, q) is the specification's at (128 T + p, q). -/
theorem volt_cell (H : Tiles T i x0 x3 x4 x5 x1 x2 A0 A1 A2 A3) (p : Fin 128) (q : Fin 4096) (R : Fin 4096)
    (hR : R.val = 128 * T.val + p.val) :
    Gen.k0_pay1 (F := Ideal) (View.ld x0 rW) (pre i x0 x1 x2 x3 x4 x5) w01 (ix2 p q) = voltAt A0 A1 A2 A3 R q := by
  unfold pre
  simp only [View.ld_unit_zero (S := S128x4096) hz]
  show Ideal.tanh (x0 (ix2 p q) + cTenth * Gen.k0_pay5 (F := Ideal) i x0 x3 x4 x5 (View.ld x1 rN) (View.ld x2 rS) (ix2 p q)) = _
  rw [pay5_apply, below_eq H p q R hR, above_eq H p q R hR, right_eq H p q R hR, left_eq H p q R hR,
    H.h0 (ix2 p q) (ix2 R q) hR rfl, H.h3 (ix2 p q) (ix2 R q) hR rfl, H.h4 (ix2 p q) (ix2 R q) hR rfl,
    H.h5 (ix2 p q) (ix2 R q) hR rfl]
  rfl

/-- The new sodium. -/
theorem sod_cell (H : Tiles T i x0 x3 x4 x5 x1 x2 A0 A1 A2 A3) (p : Fin 128) (q : Fin 4096) (R : Fin 4096)
    (hR : R.val = 128 * T.val + p.val) :
    Gen.k0_pay2 (F := Ideal) (View.ld x0 rW) (View.ld x3 rW) (pre i x0 x1 x2 x3 x4 x5) w01 (ix2 p q) = sodAt A0 A1 A2 A3 R q := by
  show View.ld x3 rW (ix2 p q) * cKeep + cTwentieth * max (Gen.k0_pay1 (F := Ideal) (View.ld x0 rW) (pre i x0 x1 x2 x3 x4 x5) w01 (ix2 p q)) cZero = _
  rw [volt_cell H p q R hR, View.ld_unit_zero (S := S128x4096) hz, H.h3 (ix2 p q) (ix2 R q) hR rfl]
  rfl

/-- The new potassium: the body's `0 − v'` is `−v'`. -/
theorem pot_cell (H : Tiles T i x0 x3 x4 x5 x1 x2 A0 A1 A2 A3) (p : Fin 128) (q : Fin 4096) (R : Fin 4096)
    (hR : R.val = 128 * T.val + p.val) :
    Gen.k0_pay3 (F := Ideal) (View.ld x0 rW) (View.ld x4 rW) (pre i x0 x1 x2 x3 x4 x5) w01 (ix2 p q) = potAt A0 A1 A2 A3 R q := by
  show View.ld x4 rW (ix2 p q) * cKeep + cTwentieth * max (cZero - Gen.k0_pay1 (F := Ideal) (View.ld x0 rW) (pre i x0 x1 x2 x3 x4 x5) w01 (ix2 p q)) cZero = _
  rw [volt_cell H p q R hR, View.ld_unit_zero (S := S128x4096) hz, H.h4 (ix2 p q) (ix2 R q) hR rfl]
  unfold potAt
  rw [show cZero - voltAt A0 A1 A2 A3 R q = -(voltAt A0 A1 A2 A3 R q) by rw [cZero_eq, zero_sub]]

/-- The new calcium. -/
theorem cal_cell (H : Tiles T i x0 x3 x4 x5 x1 x2 A0 A1 A2 A3) (p : Fin 128) (q : Fin 4096) (R : Fin 4096)
    (hR : R.val = 128 * T.val + p.val) :
    Gen.k0_pay4 (F := Ideal) (View.ld x0 rW) (View.ld x5 rW) (pre i x0 x1 x2 x3 x4 x5) w01 (ix2 p q) = calAt A0 A1 A2 A3 R q := by
  show View.ld x5 rW (ix2 p q) * cKeep + cTwentieth * max (Gen.k0_pay1 (F := Ideal) (View.ld x0 rW) (pre i x0 x1 x2 x3 x4 x5) w01 (ix2 p q)) (-(Gen.k0_pay1 (F := Ideal) (View.ld x0 rW) (pre i x0 x1 x2 x3 x4 x5) w01 (ix2 p q))) = _
  rw [volt_cell H p q R hR, View.ld_unit_zero (S := S128x4096) hz, H.h5 (ix2 p q) (ix2 R q) hR rfl]
  rfl

/-! ## The same at any index of the tile -/

theorem volt_tile (H : Tiles T i x0 x3 x4 x5 x1 x2 A0 A1 A2 A3) (y : S128x4096.Idx) (R C : Fin 4096)
    (hR : R.val = 128 * T.val + (y 0).val) (hC : C.val = (y 1).val) :
    Gen.k0_pay1 (F := Ideal) (View.ld x0 rW) (pre i x0 x1 x2 x3 x4 x5) w01 y = voltAt A0 A1 A2 A3 R C := by
  obtain ⟨p, q, rfl⟩ : ∃ (p : Fin 128) (q : Fin 4096), y = ix2 p q := ⟨y 0, y 1, eq_ix2 y⟩
  obtain rfl : C = q := Fin.ext hC
  exact volt_cell H p C R hR

theorem sod_tile (H : Tiles T i x0 x3 x4 x5 x1 x2 A0 A1 A2 A3) (y : S128x4096.Idx) (R C : Fin 4096)
    (hR : R.val = 128 * T.val + (y 0).val) (hC : C.val = (y 1).val) :
    Gen.k0_pay2 (F := Ideal) (View.ld x0 rW) (View.ld x3 rW) (pre i x0 x1 x2 x3 x4 x5) w01 y = sodAt A0 A1 A2 A3 R C := by
  obtain ⟨p, q, rfl⟩ : ∃ (p : Fin 128) (q : Fin 4096), y = ix2 p q := ⟨y 0, y 1, eq_ix2 y⟩
  obtain rfl : C = q := Fin.ext hC
  exact sod_cell H p C R hR

theorem pot_tile (H : Tiles T i x0 x3 x4 x5 x1 x2 A0 A1 A2 A3) (y : S128x4096.Idx) (R C : Fin 4096)
    (hR : R.val = 128 * T.val + (y 0).val) (hC : C.val = (y 1).val) :
    Gen.k0_pay3 (F := Ideal) (View.ld x0 rW) (View.ld x4 rW) (pre i x0 x1 x2 x3 x4 x5) w01 y = potAt A0 A1 A2 A3 R C := by
  obtain ⟨p, q, rfl⟩ : ∃ (p : Fin 128) (q : Fin 4096), y = ix2 p q := ⟨y 0, y 1, eq_ix2 y⟩
  obtain rfl : C = q := Fin.ext hC
  exact pot_cell H p C R hR

theorem cal_tile (H : Tiles T i x0 x3 x4 x5 x1 x2 A0 A1 A2 A3) (y : S128x4096.Idx) (R C : Fin 4096)
    (hR : R.val = 128 * T.val + (y 0).val) (hC : C.val = (y 1).val) :
    Gen.k0_pay4 (F := Ideal) (View.ld x0 rW) (View.ld x5 rW) (pre i x0 x1 x2 x3 x4 x5) w01 y = calAt A0 A1 A2 A3 R C := by
  obtain ⟨p, q, rfl⟩ : ∃ (p : Fin 128) (q : Fin 4096), y = ix2 p q := ⟨y 0, y 1, eq_ix2 y⟩
  obtain rfl : C = q := Fin.ext hC
  exact cal_cell H p C R hR

end Cert.KernelIdeal.Tile

end
-- ==== Proof.KI.Dats.lean ====
/-
  The proof data of the one pipeline: the arrays as the region finds them, what each staging buffer holds before
  and after the body at every grid point, and the body obligation at a generic point.

  Every input window is fetched at every point and no window is cut, so an input's current staging buffer holds its
  block of the array whenever the body runs; the body leaves the inputs' buffers as they were and each output's at
  the canonical contents of its one covering store (the body's triple).
-/
import proofs.«119271_j59382217834966_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- @main up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. That windows 0, 1 and 2 read one
    array plays no part: the statement is of one window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. That windows 0, 1 and 2 read one
    array plays no part: the statement is of one window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. That windows 0, 1 and 2 read one
    array plays no part: the statement is of one window. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. That windows 0, 1 and 2 read one
    array plays no part: the statement is of one window. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. That windows 0, 1 and 2 read one
    array plays no part: the statement is of one window. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. That windows 0, 1 and 2 read one
    array plays no part: the statement is of one window. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`. The arrays: as the region finds them. After the body at point `t`: each input's buffer
    at its block, each output's at `out0_·` of the six input blocks. The invariant: the scoped buffers the pipeline does
    not stage. Nothing owed. The shares: the first array is read through three windows, which hold it at three
    fractions making the whole (a half, and the two halves of the other half); every other input array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (grid0.coords t) (iblk m c 0 t) (iblk m c 1 t) (iblk m c 2 t) (iblk m c 3 t) (iblk m c 4 t) (iblk m c 5 t)
    | ⟨7, _⟩ => out0_7 (grid0.coords t) (iblk m c 0 t) (iblk m c 1 t) (iblk m c 2 t) (iblk m c 3 t) (iblk m c 4 t) (iblk m c 5 t)
    | ⟨8, _⟩ => out0_8 (grid0.coords t) (iblk m c 0 t) (iblk m c 1 t) (iblk m c 2 t) (iblk m c 3 t) (iblk m c 4 t) (iblk m c 5 t)
    | ⟨9, _⟩ => out0_9 (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (grid0.coords t) (iblk m c 0 t) (iblk m c 1 t) (iblk m c 2 t) (iblk m c 3 t) (iblk m c 4 t) (iblk m c 5 t) := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) := by dsimp only [dats]
theorem after0_9 (c : Dev nD) (t : Fin cfg0.N) : (dats m 0 c).after 9 t = out0_9 (grid0.coords t) (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Split.lean ====
/-
  How the eight distinct buffers behind the ten windows' arrays are dealt among the windows.

  The pipeline holds each window's array at the window's own share. Windows 0, 1 and 2 read one array; its whole
  points-to, held at the full share when the region is entered, splits along the share into a half and the two
  halves of the other half, one for each of the three windows. Every other array is one window's alone and is
  handed over whole.
-/
import proofs.«119271_j59382217834966_2_alg».proof.Proof.KI.Dats
import proofs.«119271_j59382217834966_2_alg».proof.Proof.LibFrameShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind the windows' arrays, one by one. -/
theorem arrBufs_chain (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_arg3) ↦{fullShare} V m c main_arg3)
          ∗ (((c.tc : Thread nD τ).loc main_v0_0) ↦{fullShare} V m c main_v0_0)
          ∗ (((c.tc : Thread nD τ).loc main_v0_1) ↦{fullShare} V m c main_v0_1)
          ∗ (((c.tc : Thread nD τ).loc main_v0_2) ↦{fullShare} V m c main_v0_2)
          ∗ (((c.tc : Thread nD τ).loc main_v0_3) ↦{fullShare} V m c main_v0_3)) := by
  unfold Pipeline.arrBufs
  exact bigSep_eq_bigSepL_of_eq [main_arg0, main_arg1, main_arg2, main_arg3, main_v0_0, main_v0_1, main_v0_2, main_v0_3] (by decide) (by decide) _

/-- The share each window holds its array at. -/
theorem share0_0 (c : Dev nD) : (dats m 0 c).share 0 = fullShare.left := rfl
theorem share0_1 (c : Dev nD) : (dats m 0 c).share 1 = fullShare.right.left := rfl
theorem share0_2 (c : Dev nD) : (dats m 0 c).share 2 = fullShare.right.right := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl
theorem share0_6 (c : Dev nD) : (dats m 0 c).share 6 = fullShare := rfl
theorem share0_7 (c : Dev nD) : (dats m 0 c).share 7 = fullShare := rfl
theorem share0_8 (c : Dev nD) : (dats m 0 c).share 8 = fullShare := rfl
theorem share0_9 (c : Dev nD) : (dats m 0 c).share 9 = fullShare := rfl

/-- The pipeline's arrays at entry, window by window: each window's array at the window's share, at the region-entry
    contents. -/
theorem arrays_chain (c : Dev nD) :
    (dats m 0 c).arrays ((dats m 0 c).arrAt · 0)
      = iprop((((c.tc : Thread nD τ).loc main_arg0) ↦{fullShare.left} V m c main_arg0)
          ∗ (((c.tc : Thread nD τ).loc main_arg0) ↦{fullShare.right.left} V m c main_arg0)
          ∗ (((c.tc : Thread nD τ).loc main_arg0) ↦{fullShare.right.right} V m c main_arg0)
          ∗ (((c.tc : Thread nD τ).loc main_arg1) ↦{fullShare} V m c main_arg1)
          ∗ (((c.tc : Thread nD τ).loc main_arg2) ↦{fullShare} V m c main_arg2)
          ∗ (((c.tc : Thread nD τ).loc main_arg3) ↦{fullShare} V m c main_arg3)
          ∗ (((c.tc : Thread nD τ).loc main_v0_0) ↦{fullShare} V m c main_v0_0)
          ∗ (((c.tc : Thread nD τ).loc main_v0_1) ↦{fullShare} V m c main_v0_1)
          ∗ (((c.tc : Thread nD τ).loc main_v0_2) ↦{fullShare} V m c main_v0_2)
          ∗ (((c.tc : Thread nD τ).loc main_v0_3) ↦{fullShare} V m c main_v0_3)) := by
  rw [Pipeline.SharedFrame.arrays_eq_shares (dats m 0 c) arr_whole0, bigSep_W0,
    share0_0, share0_1, share0_2, share0_3, share0_4, share0_5, share0_6, share0_7, share0_8, share0_9]
  rfl

/-- The deal: the first array's whole points-to split in three along the share, the others handed over as they are. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [arrays_chain]
  refine (Entails.of_eq (arrBufs_chain m c)).trans ?_
  iintro ⟨H0, H1, H2, H3, H4, H5, H6, H7⟩
  ihave Hs := (pointsTo_share (PosShare.mem_left_op_right fullShare)).1 $$ H0
  icases Hs with ⟨Ha, Hb⟩
  ihave Hs' := (pointsTo_share (PosShare.mem_left_op_right fullShare.right)).1 $$ Hb
  icases Hs' with ⟨Hb, Hc⟩
  isplitl [Ha]; · iexact Ha
  isplitl [Hb]; · iexact Hb
  isplitl [Hc]; · iexact Hc
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand

end
-- ==== Proof.KI.Frame.lean ====
/-
  The frame run of the kernel and the frame claim.

  The kernel's call reads its first argument through three input windows, so the launch is the shared-array one: the
  pipeline is entered with the eight distinct buffers behind the ten windows' arrays, and the first is dealt to its
  three windows at fractions of the full share. From the body obligation at every grid point, every weakly fair
  execution of @main terminates with every window's array at what the proof data computes; an input array is never
  written, so each of the four argument arrays ends as launched.
-/
import proofs.«119271_j59382217834966_2_alg».proof.Proof.KI.Split

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- At the compiled mesh, for any values, from any memory with zero counters: every weakly fair execution of @main on
    the TensorCores terminates, and every final state has every array of the pipeline at what the library computes from
    the proof data and every other unscoped buffer as the region found it. -/
theorem run_main : θ_run defs (onTc (τ := τ) (main (F := F))) (s₀ m ρ) (Pipeline.FramePost cfgs (dats m) 0 (V m)) :=
  Pipeline.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- info: 'Cert.KernelIdeal.Hand.run_main' depends on axioms: [propext, Classical.choice, Quot.sound] -/
#guard_msgs in #print axioms run_main

/-! ## The frame -/

/-- The four argument arrays end as launched: the first read off input window 0, the others off windows 3, 4 and 5 —
    an input window's array is at its entry contents after every write-back, and those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans rfl)),
     ((h c).1 3).trans (((dats m 0 c).arrAt_in 3 rfl _).trans ((A_eq m c 3).trans rfl)),
     ((h c).1 4).trans (((dats m 0 c).arrAt_in 4 rfl _).trans ((A_eq m c 4).trans rfl)),
     ((h c).1 5).trans (((dats m 0 c).arrAt_in 5 rfl _).trans ((A_eq m c 5).trans rfl))⟩) (run_main m ρ)

end Cert.KernelIdeal.Hand

end
-- ==== Proof.KI.Whole.lean ====
/-
  The kernel's four result arrays, whole.

  Grid point t stages rows 128 t … 128 t + 127 of each field (and, of the voltage, the eight rows ending at row
  128 t − 1 and the eight rows beginning at row 128 (t + 1), or at the grid's ends some other eight rows the body does
  not use), and writes back rows 128 t … 128 t + 127 of each result. What it writes back is the specification's tile
  (module Tile); the 32 tiles cover each result array; so after the run each result array is the specification's.
-/
import proofs.«119271_j59382217834966_2_alg».proof.Proof.KI.Tile
import proofs.«119271_j59382217834966_2_alg».proof.Proof.KI.Frame
import Idealize.ShloMosaic.Lib.Pipeline.Value

noncomputable section

namespace Cert.KernelIdeal.Whole

open Cert.KernelIdeal Cert.KernelIdeal.Gen Cert.KernelIdeal.Hand Cert.KernelIdeal.Tile
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps in closed form, decided over the 32 grid points: every 128-row window is at row block t;
    the upper halo window at the eight-row block ending just above the tile (block 0 at the first tile), the lower one
    at the block beginning just below it (the last block at the last tile). -/
theorem idx_facts : ∀ t : Fin cfg0.N,
    win0_0.index t (0 : Fin 2) = t.val ∧ win0_0.index t (1 : Fin 2) = 0
    ∧ win0_1.index t (0 : Fin 2) = (if t.val = 0 then 0 else 16 * t.val - 1) ∧ win0_1.index t (1 : Fin 2) = 0
    ∧ win0_2.index t (0 : Fin 2) = (if t.val = 31 then 511 else 16 * (t.val + 1)) ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ ((grid0.coords t) 0).val = t.val :=
  (by decide +kernel : ∀ t : Fin grid0.N, _)

/-- The grid has 32 points. -/
theorem N_lt (t : Fin cfg0.N) : t.val < 32 := by have := t.isLt; have h : cfg0.N = 32 := N_0; omega

/-- At grid point t the six input blocks are the argument arrays' tiles. -/
theorem tiles (c : Dev nD) (t : Fin cfg0.N) :
    Tiles ⟨t.val, N_lt t⟩ (grid0.coords t) (iblk m c 0 t) (iblk m c 3 t) (iblk m c 4 t) (iblk m c 5 t) (iblk m c 1 t) (iblk m c 2 t)
      (V m c main_arg0) (V m c main_arg1) (V m c main_arg2) (V m c main_arg3) := by
  obtain ⟨e00, e01, e10, e11, e20, e21, e30, e31, e40, e41, e50, e51, -, -, -, -, -, -, -, -, ec⟩ := idx_facts t
  refine ⟨ec, ?_, ?_, ?_, ?_, ?_, ?_⟩
  · intro y k h0 h1
    show V m c main_arg0 (((cfg0.win 0).blk t).view.emb y) = V m c main_arg0 k
    refine congrArg _ (funext fun a => Fin.ext ?_)
    match a with
    | ⟨0, _⟩ => show win0_0.index t (0 : Fin 2) * 128 + 1 * (y 0).val = (k 0).val; have h0' : (k 0).val = 128 * t.val + (y 0).val := h0; omega
    | ⟨1, _⟩ => show win0_0.index t (1 : Fin 2) * 4096 + 1 * (y 1).val = (k 1).val; omega
  · intro y k h0 h1
    show V m c main_arg1 (((cfg0.win 3).blk t).view.emb y) = V m c main_arg1 k
    refine congrArg _ (funext fun a => Fin.ext ?_)
    match a with
    | ⟨0, _⟩ => show win0_3.index t (0 : Fin 2) * 128 + 1 * (y 0).val = (k 0).val; have h0' : (k 0).val = 128 * t.val + (y 0).val := h0; omega
    | ⟨1, _⟩ => show win0_3.index t (1 : Fin 2) * 4096 + 1 * (y 1).val = (k 1).val; omega
  · intro y k h0 h1
    show V m c main_arg2 (((cfg0.win 4).blk t).view.emb y) = V m c main_arg2 k
    refine congrArg _ (funext fun a => Fin.ext ?_)
    match a with
    | ⟨0, _⟩ => show win0_4.index t (0 : Fin 2) * 128 + 1 * (y 0).val = (k 0).val; have h0' : (k 0).val = 128 * t.val + (y 0).val := h0; omega
    | ⟨1, _⟩ => show win0_4.index t (1 : Fin 2) * 4096 + 1 * (y 1).val = (k 1).val; omega
  · intro y k h0 h1
    show V m c main_arg3 (((cfg0.win 5).blk t).view.emb y) = V m c main_arg3 k
    refine congrArg _ (funext fun a => Fin.ext ?_)
    match a with
    | ⟨0, _⟩ => show win0_5.index t (0 : Fin 2) * 128 + 1 * (y 0).val = (k 0).val; have h0' : (k 0).val = 128 * t.val + (y 0).val := h0; omega
    | ⟨1, _⟩ => show win0_5.index t (1 : Fin 2) * 4096 + 1 * (y 1).val = (k 1).val; omega
  · intro y k h0 h1
    show V m c main_arg0 (((cfg0.win 1).blk t).view.emb y) = V m c main_arg0 k
    refine congrArg _ (funext fun a => Fin.ext ?_)
    match a with
    | ⟨0, _⟩ =>
      show win0_1.index t (0 : Fin 2) * 8 + 1 * (y 0).val = (k 0).val
      have h0' : (k 0).val = 8 * (if t.val = 0 then 0 else 16 * t.val - 1) + (y 0).val := h0
      rw [e10, h0']; split <;> omega
    | ⟨1, _⟩ => show win0_1.index t (1 : Fin 2) * 4096 + 1 * (y 1).val = (k 1).val; omega
  · intro y k h0 h1
    show V m c main_arg0 (((cfg0.win 2).blk t).view.emb y) = V m c main_arg0 k
    refine congrArg _ (funext fun a => Fin.ext ?_)
    match a with
    | ⟨0, _⟩ =>
      show win0_2.index t (0 : Fin 2) * 8 + 1 * (y 0).val = (k 0).val
      have h0' : (k 0).val = 8 * (if t.val = 31 then 511 else 16 * (t.val + 1)) + (y 0).val := h0
      rw [e20, h0']; split <;> omega
    | ⟨1, _⟩ => show win0_2.index t (1 : Fin 2) * 4096 + 1 * (y 1).val = (k 1).val; omega

/-- The specification's arrays over the argument arrays as the region finds them. -/
abbrev specV (c : Dev nD) : Cert.Stencil.Arr := Cert.Stencil.newV (V m c main_arg0) (V m c main_arg1) (V m c main_arg2) (V m c main_arg3)
abbrev specS (c : Dev nD) : Cert.Stencil.Arr := Cert.Stencil.newS (V m c main_arg0) (V m c main_arg1) (V m c main_arg2) (V m c main_arg3)
abbrev specP (c : Dev nD) : Cert.Stencil.Arr := Cert.Stencil.newP (V m c main_arg0) (V m c main_arg1) (V m c main_arg2) (V m c main_arg3)
abbrev specQ (c : Dev nD) : Cert.Stencil.Arr := Cert.Stencil.newQ (V m c main_arg0) (V m c main_arg1) (V m c main_arg2) (V m c main_arg3)

/-- A tile's index under the 128-row window `w` at point t: row 128 t + its row, same column (stated for the
    four result windows at once through their index facts). -/
theorem flushed6_eq (c : Dev nD) (t : Fin cfg0.N) :
    (dats m 0 c).flushed 6 t = ((cfg0.win 6).blk t).view.read (Elt Ideal) (specV m c) := by
  show (cfg0.win 6).cut (grid0.coords t) ((dats m 0 c).after 6 t) = _
  rw [after0_6]
  unfold out0_6
  rw [View.canon_unit_zero hz]
  obtain ⟨-, -, -, -, -, -, -, -, -, -, -, -, e60, e61, -⟩ := idx_facts t
  funext j
  have hR : (((cfg0.win 6).blk t).view.emb j 0).val = 128 * t.val + (j 0).val := by
    show win0_6.index t (0 : Fin 2) * 128 + 1 * (j 0).val = _; omega
  have hC : (((cfg0.win 6).blk t).view.emb j 1).val = (j 1).val := by
    show win0_6.index t (1 : Fin 2) * 4096 + 1 * (j 1).val = _; omega
  exact volt_tile (tiles m c t) j (((cfg0.win 6).blk t).view.emb j 0) (((cfg0.win 6).blk t).view.emb j 1) hR hC

theorem flushed7_eq (c : Dev nD) (t : Fin cfg0.N) :
    (dats m 0 c).flushed 7 t = ((cfg0.win 7).blk t).view.read (Elt Ideal) (specS m c) := by
  show (cfg0.win 7).cut (grid0.coords t) ((dats m 0 c).after 7 t) = _
  rw [after0_7]
  unfold out0_7
  rw [View.canon_unit_zero hz]
  obtain ⟨-, -, -, -, -, -, -, -, -, -, -, -, -, -, e70, e71, -⟩ := idx_facts t
  funext j
  have hR : (((cfg0.win 7).blk t).view.emb j 0).val = 128 * t.val + (j 0).val := by
    show win0_7.index t (0 : Fin 2) * 128 + 1 * (j 0).val = _; omega
  have hC : (((cfg0.win 7).blk t).view.emb j 1).val = (j 1).val := by
    show win0_7.index t (1 : Fin 2) * 4096 + 1 * (j 1).val = _; omega
  exact sod_tile (tiles m c t) j (((cfg0.win 7).blk t).view.emb j 0) (((cfg0.win 7).blk t).view.emb j 1) hR hC

theorem flushed8_eq (c : Dev nD) (t : Fin cfg0.N) :
    (dats m 0 c).flushed 8 t = ((cfg0.win 8).blk t).view.read (Elt Ideal) (specP m c) := by
  show (cfg0.win 8).cut (grid0.coords t) ((dats m 0 c).after 8 t) = _
  rw [after0_8]
  unfold out0_8
  rw [View.canon_unit_zero hz]
  obtain ⟨-, -, -, -, -, -, -, -, -, -, -, -, -, -, -, -, e80, e81, -⟩ := idx_facts t
  funext j
  have hR : (((cfg0.win 8).blk t).view.emb j 0).val = 128 * t.val + (j 0).val := by
    show win0_8.index t (0 : Fin 2) * 128 + 1 * (j 0).val = _; omega
  have hC : (((cfg0.win 8).blk t).view.emb j 1).val = (j 1).val := by
    show win0_8.index t (1 : Fin 2) * 4096 + 1 * (j 1).val = _; omega
  exact pot_tile (tiles m c t) j (((cfg0.win 8).blk t).view.emb j 0) (((cfg0.win 8).blk t).view.emb j 1) hR hC

theorem flushed9_eq (c : Dev nD) (t : Fin cfg0.N) :
    (dats m 0 c).flushed 9 t = ((cfg0.win 9).blk t).view.read (Elt Ideal) (specQ m c) := by
  show (cfg0.win 9).cut (grid0.coords t) ((dats m 0 c).after 9 t) = _
  rw [after0_9]
  unfold out0_9
  rw [View.canon_unit_zero hz]
  obtain ⟨-, -, -, -, -, -, -, -, -, -, -, -, -, -, -, -, -, -, e90, e91, -⟩ := idx_facts t
  funext j
  have hR : (((cfg0.win 9).blk t).view.emb j 0).val = 128 * t.val + (j 0).val := by
    show win0_9.index t (0 : Fin 2) * 128 + 1 * (j 0).val = _; omega
  have hC : (((cfg0.win 9).blk t).view.emb j 1).val = (j 1).val := by
    show win0_9.index t (1 : Fin 2) * 4096 + 1 * (j 1).val = _; omega
  exact cal_tile (tiles m c t) j (((cfg0.win 9).blk t).view.emb j 0) (((cfg0.win 9).blk t).view.emb j 1) hR hC

/-! ## The tiles cover the arrays -/

/-- An index of a result array lies in point t's block iff its row is one of rows 128 t … 128 t + 127. -/
theorem mem_blk6 (t : Fin cfg0.N) (i : S4096x4096.Idx) :
    i ∈ ((cfg0.win 6).blk t).view.set ↔ ∀ a : Fin 2, win0_6.index t a * S128x4096.size a ≤ (i a).val ∧ (i a).val < win0_6.index t a * S128x4096.size a + S128x4096.size a := by
  show i ∈ ((View.whole main_v0_0).slice (win0_6.rect t)).set ↔ _
  rw [View.set_slice_whole, Rect.mem_set_unit]
  exact Iff.rfl
theorem mem_blk7 (t : Fin cfg0.N) (i : S4096x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v0_1).slice (win0_7.rect t)).set ↔ _
  rw [View.set_slice_whole, Rect.mem_set_unit]
  exact Iff.rfl
theorem mem_blk8 (t : Fin cfg0.N) (i : S4096x4096.Idx) :
    i ∈ ((cfg0.win 8).blk t).view.set ↔ ∀ a : Fin 2, win0_8.index t a * S128x4096.size a ≤ (i a).val ∧ (i a).val < win0_8.index t a * S128x4096.size a + S128x4096.size a := by
  show i ∈ ((View.whole main_v0_2).slice (win0_8.rect t)).set ↔ _
  rw [View.set_slice_whole, Rect.mem_set_unit]
  exact Iff.rfl
theorem mem_blk9 (t : Fin cfg0.N) (i : S4096x4096.Idx) :
    i ∈ ((cfg0.win 9).blk t).view.set ↔ ∀ a : Fin 2, win0_9.index t a * S128x4096.size a ≤ (i a).val ∧ (i a).val < win0_9.index t a * S128x4096.size a + S128x4096.size a := by
  show i ∈ ((View.whole main_v0_3).slice (win0_9.rect t)).set ↔ _
  rw [View.set_slice_whole, Rect.mem_set_unit]
  exact Iff.rfl

/-- The grid point whose tile holds row r: r / 128. -/
def pointOf (i : S4096x4096.Idx) : Fin cfg0.N := Fin.cast N_0.symm ⟨(i 0).val / 128, by have : (i 0).val < 4096 := (i 0).isLt; omega⟩

theorem pointOf_val (i : S4096x4096.Idx) : (pointOf i).val = (i 0).val / 128 := rfl

theorem cover6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨-, -, -, -, -, -, -, -, -, -, -, -, e0, e1, -⟩ := idx_facts (pointOf i)
  have hv := pointOf_val i
  refine ⟨pointOf i, flush0_6 _, ?_⟩
  rw [mem_blk6]
  intro a
  match a with
  | ⟨0, _⟩ => show win0_6.index (pointOf i) (0 : Fin 2) * 128 ≤ (i 0).val ∧ (i 0).val < win0_6.index (pointOf i) (0 : Fin 2) * 128 + 128; omega
  | ⟨1, _⟩ => show win0_6.index (pointOf i) (1 : Fin 2) * 4096 ≤ (i 1).val ∧ (i 1).val < win0_6.index (pointOf i) (1 : Fin 2) * 4096 + 4096; omega

theorem cover7 (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨-, -, -, -, -, -, -, -, -, -, -, -, -, -, e0, e1, -⟩ := idx_facts (pointOf i)
  have hv := pointOf_val i
  refine ⟨pointOf i, flush0_7 _, ?_⟩
  rw [mem_blk7]
  intro a
  match a with
  | ⟨0, _⟩ => show win0_7.index (pointOf i) (0 : Fin 2) * 128 ≤ (i 0).val ∧ (i 0).val < win0_7.index (pointOf i) (0 : Fin 2) * 128 + 128; omega
  | ⟨1, _⟩ => show win0_7.index (pointOf i) (1 : Fin 2) * 4096 ≤ (i 1).val ∧ (i 1).val < win0_7.index (pointOf i) (1 : Fin 2) * 4096 + 4096; omega

theorem cover8 (i : S4096x4096.Idx) : ∃ t : Fin cfg0.N, (cfg0.win 8).flush t = true ∧ i ∈ ((cfg0.win 8).blk t).view.set := by
  have hi0 : (i 0).val < 4096 := (i 0).isLt
  have hi1 : (i 1).val < 4096 := (i 1).isLt
  obtain ⟨-, -, -, -, -, -, -, -, -, -, -, -, -, -, -, -, e0, e1, -⟩ := idx_facts (pointOf i)
  have hv := pointOf_val i
  refine ⟨pointOf i, flush0_8 _, ?_⟩
  rw [mem_blk8]
  intro a
  match a with
  | ⟨0, _⟩ => show win0_8.index (pointOf i) (0 : Fin 2) * 128 ≤ (i 0).val ∧ (i 0).val < win0_8.index (pointOf i) (0 : Fin 2) * 128 + 128; omega
  | ⟨1, _⟩ => show win0_8.index (pointOf i) (1 : Fin 2) * 4096 ≤ (i 1).val ∧ (i 1).val < win0_8.index (pointOf i) (1 : Fin 2) * 4096 + 4096; omega

theorem cover9 (i : S4096x4096.Idx) : ∃ t : Fin cfg0.N, (cfg0.win 9).flush t = true ∧ i ∈ ((cfg0.win 9).blk t).view.set := by
  have hi0 : (i 0).val < 4096 := (i 0).isLt
  have hi1 : (i 1).val < 4096 := (i 1).isLt
  obtain ⟨-, -, -, -, -, -, -, -, -, -, -, -, -, -, -, -, -, -, e0, e1, -⟩ := idx_facts (pointOf i)
  have hv := pointOf_val i
  refine ⟨pointOf i, flush0_9 _, ?_⟩
  rw [mem_blk9]
  intro a
  match a with
  | ⟨0, _⟩ => show win0_9.index (pointOf i) (0 : Fin 2) * 128 ≤ (i 0).val ∧ (i 0).val < win0_9.index (pointOf i) (0 : Fin 2) * 128 + 128; omega
  | ⟨1, _⟩ => show win0_9.index (pointOf i) (1 : Fin 2) * 4096 ≤ (i 1).val ∧ (i 1).val < win0_9.index (pointOf i) (1 : Fin 2) * 4096 + 4096; omega

/-! ## The arrays after the run -/

theorem final6 (c : Dev nD) : (dats m 0 c).arrAt 6 cfg0.N = specV m c :=
  (dats m 0 c).arrAt_eq_of_cover 6 (specV m c) (fun t _ => flushed6_eq m c t) cover6
theorem final7 (c : Dev nD) : (dats m 0 c).arrAt 7 cfg0.N = specS m c :=
  (dats m 0 c).arrAt_eq_of_cover 7 (specS m c) (fun t _ => flushed7_eq m c t) cover7
theorem final8 (c : Dev nD) : (dats m 0 c).arrAt 8 cfg0.N = specP m c :=
  (dats m 0 c).arrAt_eq_of_cover 8 (specP m c) (fun t _ => flushed8_eq m c t) cover8
theorem final9 (c : Dev nD) : (dats m 0 c).arrAt 9 cfg0.N = specQ m c :=
  (dats m 0 c).arrAt_eq_of_cover 9 (specQ m c) (fun t _ => flushed9_eq m c t) cover9

/-- The kernel's run, read: every weakly fair execution terminates with the four result arrays at the specification's
    arrays of the argument arrays, and the argument arrays unchanged. -/
theorem run : θ_run defs (onTc (τ := τ) (main (F := Ideal))) ⟨m, fun _ => 0, ρ⟩ fun r => ∀ c : Dev nD,
      r.2.mem ((c.tc : Thread nD τ).loc main_v0_0) = specV m c
      ∧ r.2.mem ((c.tc : Thread nD τ).loc main_v0_1) = specS m c
      ∧ r.2.mem ((c.tc : Thread nD τ).loc main_v0_2) = specP m c
      ∧ r.2.mem ((c.tc : Thread nD τ).loc main_v0_3) = specQ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 6).trans (final6 m c), ((h c).1 7).trans (final7 m c),
      ((h c).1 8).trans (final8 m c), ((h c).1 9).trans (final9 m c),
      ((h c).1 0).trans (((dats m 0 c).arrAt_in 0 rfl _).trans (A_eq m c 0)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5))⟩)
    (run_main m ρ)

end Cert.KernelIdeal.Whole

end
-- ==== Proof.Ref.Ops.lean ====
/-
  The reference program's @main as the list of its 77 array operations, in order, the calls it makes replaced by
  the operations of the called functions over the buffers of each call: the mirrored padding is sixteen operations
  (four times: two slices, the reversal of one, a concatenation), each max (x, 0) three (the zero, its broadcast, the
  maximum). @main is the straight line of these operations, and each touches only references of the tensor core.
-/
import proofs.«119271_j59382217834966_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 77 operations, in order, the called functions' operations in place of the calls. -/
abbrev ops : List (HloOp τ sig (Elt F)) :=
  [
    StableHlo.nullary main_c (constantI S_ 32 0#32),
    TRef.unary (.of main_arg0 : TRef sig ⟨S4096x4096, .f32⟩) main_call0.v0 (extractStridedSlice S1x4096 ![0, 0] · slices_S4096x4096_S1x4096_0_0),
    TRef.unary (.of main_arg0 : TRef sig ⟨S4096x4096, .f32⟩) main_call0.v1 (extractStridedSlice S1x4096 ![1, 0] · slices_S4096x4096_S1x4096_1_0),
    TRef.unary main_call0.v1 main_call0.call0.v0 (Host.reverse [0]),
    TRef.binary main_call0.call0.v0 (.of main_arg0 : TRef sig ⟨S4096x4096, .f32⟩) main_call0.v3 (fun a b => concatenate S4097x4096 0 [⟨S1x4096, a⟩, ⟨S4096x4096, b⟩] concatenates_S1x4096_S4096x4096_S4097x4096_d0),
    TRef.unary main_call0.v3 main_call0.v4 (extractStridedSlice S1x4096 ![4096, 0] · slices_S4097x4096_S1x4096_4096_0),
    TRef.unary main_call0.v3 main_call0.v5 (extractStridedSlice S1x4096 ![4095, 0] · slices_S4097x4096_S1x4096_4095_0),
    TRef.unary main_call0.v5 main_call0.call1.v0 (Host.reverse [0]),
    TRef.binary main_call0.v3 main_call0.call1.v0 main_call0.v7 (fun a b => concatenate S4098x4096 0 [⟨S4097x4096, a⟩, ⟨S1x4096, b⟩] concatenates_S4097x4096_S1x4096_S4098x4096_d0),
    TRef.unary main_call0.v7 main_call0.v8 (extractStridedSlice S4098x1 ![0, 0] · slices_S4098x4096_S4098x1_0_0),
    TRef.unary main_call0.v7 main_call0.v9 (extractStridedSlice S4098x1 ![0, 1] · slices_S4098x4096_S4098x1_0_1),
    TRef.unary main_call0.v9 main_call0.call2.v0 (Host.reverse [1]),
    TRef.binary main_call0.call2.v0 main_call0.v7 main_call0.v11 (fun a b => concatenate S4098x4097 1 [⟨S4098x1, a⟩, ⟨S4098x4096, b⟩] concatenates_S4098x1_S4098x4096_S4098x4097_d1),
    TRef.unary main_call0.v11 main_call0.v12 (extractStridedSlice S4098x1 ![0, 4096] · slices_S4098x4097_S4098x1_0_4096),
    TRef.unary main_call0.v11 main_call0.v13 (extractStridedSlice S4098x1 ![0, 4095] · slices_S4098x4097_S4098x1_0_4095),
    TRef.unary main_call0.v13 main_call0.call3.v0 (Host.reverse [1]),
    TRef.binary main_call0.v11 main_call0.call3.v0 main_call0.v15 (fun a b => concatenate S4098x4098 1 [⟨S4098x4097, a⟩, ⟨S4098x1, b⟩] concatenates_S4098x4097_S4098x1_S4098x4098_d1),
    StableHlo.unary main_v0 main_v1 ((extractStridedSlice S4096x4096 ![2, 1] · slices_S4098x4098_S4096x4096_2_1) : (⟨S4098x4098, .f32⟩ : BufTy).Contents (Elt F) → (⟨S4096x4096, .f32⟩ : BufTy).Contents (Elt F)),
    StableHlo.unary main_v0 main_v2 ((extractStridedSlice S4096x4096 ![0, 1] · slices_S4098x4098_S4096x4096_0_1) : (⟨S4098x4098, .f32⟩ : BufTy).Contents (Elt F) → (⟨S4096x4096, .f32⟩ : BufTy).Contents (Elt F)),
    StableHlo.binary main_v1 main_v2 main_v3 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v4 ((extractStridedSlice S4096x4096 ![1, 2] · slices_S4098x4098_S4096x4096_1_2) : (⟨S4098x4098, .f32⟩ : BufTy).Contents (Elt F) → (⟨S4096x4096, .f32⟩ : BufTy).Contents (Elt F)),
    StableHlo.binary main_v3 main_v4 main_v5 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v6 ((extractStridedSlice S4096x4096 ![1, 0] · slices_S4098x4098_S4096x4096_1_0) : (⟨S4098x4098, .f32⟩ : BufTy).Contents (Elt F) → (⟨S4096x4096, .f32⟩ : BufTy).Contents (Elt F)),
    StableHlo.binary main_v5 main_v6 main_v7 (addf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x40800000#32),
    StableHlo.unary main_cst main_v8 (broadcastInDim S4096x4096 ![] bcast_S_S4096x4096 : (⟨S_, .f32⟩ : BufTy).Contents (Elt F) → (⟨S4096x4096, .f32⟩ : BufTy).Contents (Elt F)),
    StableHlo.binary main_v8 main_arg0 main_v9 (mulf : (⟨S4096x4096, .f32⟩ : BufTy).Contents (Elt F) → (⟨S4096x4096, .f32⟩ : BufTy).Contents (Elt F) → (⟨S4096x4096, .f32⟩ : BufTy).Contents (Elt F)),
    StableHlo.binary main_v7 main_v9 main_v10 (subf : (⟨S4096x4096, .f32⟩ : BufTy).Contents (Elt F) → (⟨S4096x4096, .f32⟩ : BufTy).Contents (Elt F) → (⟨S4096x4096, .f32⟩ : BufTy).Contents (Elt F)),
    StableHlo.nullary main_cst_0 (constant S_ .f32 0x3F000000#32),
    StableHlo.unary main_cst_0 main_v11 (broadcastInDim S4096x4096 ![] bcast_S_S4096x4096 : (⟨S_, .f32⟩ : BufTy).Contents (Elt F) → (⟨S4096x4096, .f32⟩ : BufTy).Contents (Elt F)),
    StableHlo.binary main_v11 main_v10 main_v12 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x3DCCCCCD#32),
    StableHlo.unary main_cst_1 main_v13 (broadcastInDim S4096x4096 ![] bcast_S_S4096x4096 : (⟨S_, .f32⟩ : BufTy).Contents (Elt F) → (⟨S4096x4096, .f32⟩ : BufTy).Contents (Elt F)),
    StableHlo.binary main_v13 main_arg1 main_v14 (mulf : (⟨S4096x4096, .f32⟩ : BufTy).Contents (Elt F) → (⟨S4096x4096, .f32⟩ : BufTy).Contents (Elt F) → (⟨S4096x4096, .f32⟩ : BufTy).Contents (Elt F)),
    StableHlo.binary main_v12 main_v14 main_v15 (addf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x3D4CCCCD#32),
    StableHlo.unary main_cst_2 main_v16 (broadcastInDim S4096x4096 ![] bcast_S_S4096x4096 : (⟨S_, .f32⟩ : BufTy).Contents (Elt F) → (⟨S4096x4096, .f32⟩ : BufTy).Contents (Elt F)),
    StableHlo.binary main_v16 main_arg2 main_v17 (mulf : (⟨S4096x4096, .f32⟩ : BufTy).Contents (Elt F) → (⟨S4096x4096, .f32⟩ : BufTy).Contents (Elt F) → (⟨S4096x4096, .f32⟩ : BufTy).Contents (Elt F)),
    StableHlo.binary main_v15 main_v17 main_v18 (subf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x3DA3D70A#32),
    StableHlo.unary main_cst_3 main_v19 (broadcastInDim S4096x4096 ![] bcast_S_S4096x4096 : (⟨S_, .f32⟩ : BufTy).Contents (Elt F) → (⟨S4096x4096, .f32⟩ : BufTy).Contents (Elt F)),
    StableHlo.binary main_v19 main_arg3 main_v20 (mulf : (⟨S4096x4096, .f32⟩ : BufTy).Contents (Elt F) → (⟨S4096x4096, .f32⟩ : BufTy).Contents (Elt F) → (⟨S4096x4096, .f32⟩ : BufTy).Contents (Elt F)),
    StableHlo.binary main_v18 main_v20 main_v21 (addf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0x3DCCCCCD#32),
    StableHlo.unary main_cst_4 main_v22 (broadcastInDim S4096x4096 ![] bcast_S_S4096x4096 : (⟨S_, .f32⟩ : BufTy).Contents (Elt F) → (⟨S4096x4096, .f32⟩ : BufTy).Contents (Elt F)),
    StableHlo.binary main_v22 main_v21 main_v23 (mulf : (⟨S4096x4096, .f32⟩ : BufTy).Contents (Elt F) → (⟨S4096x4096, .f32⟩ : BufTy).Contents (Elt F) → (⟨S4096x4096, .f32⟩ : BufTy).Contents (Elt F)),
    StableHlo.binary main_arg0 main_v23 main_v24 (addf : (⟨S4096x4096, .f32⟩ : BufTy).Contents (Elt F) → (⟨S4096x4096, .f32⟩ : BufTy).Contents (Elt F) → (⟨S4096x4096, .f32⟩ : BufTy).Contents (Elt F)),
    StableHlo.unary main_v24 main_v25 (Host.tanh : (⟨S4096x4096, .f32⟩ : BufTy).Contents (Elt F) → (⟨S4096x4096, .f32⟩ : BufTy).Contents (Elt F)),
    StableHlo.nullary main_cst_5 (constant S_ .f32 0x3F733333#32),
    StableHlo.unary main_cst_5 main_v26 (broadcastInDim S4096x4096 ![] bcast_S_S4096x4096 : (⟨S_, .f32⟩ : BufTy).Contents (Elt F) → (⟨S4096x4096, .f32⟩ : BufTy).Contents (Elt F)),
    StableHlo.binary main_arg1 main_v26 main_v27 (mulf : (⟨S4096x4096, .f32⟩ : BufTy).Contents (Elt F) → (⟨S4096x4096, .f32⟩ : BufTy).Contents (Elt F) → (⟨S4096x4096, .f32⟩ : BufTy).Contents (Elt F)),
    TRef.nullary main_call1.cst (constant S_ .f32 0x00000000#32),
    TRef.unary main_call1.cst main_call1.v0 (broadcastInDim S4096x4096 ![] bcast_S_S4096x4096),
    TRef.binary (.of main_v25 : TRef sig ⟨S4096x4096, .f32⟩) main_call1.v0 main_call1.v1 maximumf,
    StableHlo.nullary main_cst_6 (constant S_ .f32 0x3D4CCCCD#32),
    StableHlo.unary main_cst_6 main_v29 (broadcastInDim S4096x4096 ![] bcast_S_S4096x4096 : (⟨S_, .f32⟩ : BufTy).Contents (Elt F) → (⟨S4096x4096, .f32⟩ : BufTy).Contents (Elt F)),
    StableHlo.binary main_v29 main_v28 main_v30 (mulf : (⟨S4096x4096, .f32⟩ : BufTy).Contents (Elt F) → (⟨S4096x4096, .f32⟩ : BufTy).Contents (Elt F) → (⟨S4096x4096, .f32⟩ : BufTy).Contents (Elt F)),
    StableHlo.binary main_v27 main_v30 main_v31 (addf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x3F733333#32),
    StableHlo.unary main_cst_7 main_v32 (broadcastInDim S4096x4096 ![] bcast_S_S4096x4096 : (⟨S_, .f32⟩ : BufTy).Contents (Elt F) → (⟨S4096x4096, .f32⟩ : BufTy).Contents (Elt F)),
    StableHlo.binary main_arg2 main_v32 main_v33 (mulf : (⟨S4096x4096, .f32⟩ : BufTy).Contents (Elt F) → (⟨S4096x4096, .f32⟩ : BufTy).Contents (Elt F) → (⟨S4096x4096, .f32⟩ : BufTy).Contents (Elt F)),
    StableHlo.unary main_v25 main_v34 (Host.negf : (⟨S4096x4096, .f32⟩ : BufTy).Contents (Elt F) → (⟨S4096x4096, .f32⟩ : BufTy).Contents (Elt F)),
    TRef.nullary main_call2.cst (constant S_ .f32 0x00000000#32),
    TRef.unary main_call2.cst main_call2.v0 (broadcastInDim S4096x4096 ![] bcast_S_S4096x4096),
    TRef.binary (.of main_v34 : TRef sig ⟨S4096x4096, .f32⟩) main_call2.v0 main_call2.v1 maximumf,
    StableHlo.nullary main_cst_8 (constant S_ .f32 0x3D4CCCCD#32),
    StableHlo.unary main_cst_8 main_v36 (broadcastInDim S4096x4096 ![] bcast_S_S4096x4096 : (⟨S_, .f32⟩ : BufTy).Contents (Elt F) → (⟨S4096x4096, .f32⟩ : BufTy).Contents (Elt F)),
    StableHlo.binary main_v36 main_v35 main_v37 (mulf : (⟨S4096x4096, .f32⟩ : BufTy).Contents (Elt F) → (⟨S4096x4096, .f32⟩ : BufTy).Contents (Elt F) → (⟨S4096x4096, .f32⟩ : BufTy).Contents (Elt F)),
    StableHlo.binary main_v33 main_v37 main_v38 (addf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x3F733333#32),
    StableHlo.unary main_cst_9 main_v39 (broadcastInDim S4096x4096 ![] bcast_S_S4096x4096 : (⟨S_, .f32⟩ : BufTy).Contents (Elt F) → (⟨S4096x4096, .f32⟩ : BufTy).Contents (Elt F)),
    StableHlo.binary main_arg3 main_v39 main_v40 (mulf : (⟨S4096x4096, .f32⟩ : BufTy).Contents (Elt F) → (⟨S4096x4096, .f32⟩ : BufTy).Contents (Elt F) → (⟨S4096x4096, .f32⟩ : BufTy).Contents (Elt F)),
    StableHlo.unary main_v25 main_v41 (Host.absf : (⟨S4096x4096, .f32⟩ : BufTy).Contents (Elt F) → (⟨S4096x4096, .f32⟩ : BufTy).Contents (Elt F)),
    StableHlo.nullary main_cst_10 (constant S_ .f32 0x3D4CCCCD#32),
    StableHlo.unary main_cst_10 main_v42 (broadcastInDim S4096x4096 ![] bcast_S_S4096x4096 : (⟨S_, .f32⟩ : BufTy).Contents (Elt F) → (⟨S4096x4096, .f32⟩ : BufTy).Contents (Elt F)),
    StableHlo.binary main_v42 main_v41 main_v43 (mulf : (⟨S4096x4096, .f32⟩ : BufTy).Contents (Elt F) → (⟨S4096x4096, .f32⟩ : BufTy).Contents (Elt F) → (⟨S4096x4096, .f32⟩ : BufTy).Contents (Elt F)),
    StableHlo.binary main_v40 main_v43 main_v44 (addf : (⟨S4096x4096, .f32⟩ : BufTy).Contents (Elt F) → (⟨S4096x4096, .f32⟩ : BufTy).Contents (Elt F) → (⟨S4096x4096, .f32⟩ : BufTy).Contents (Elt F)) ]

/-- @main is that straight line: with the called functions unfolded at their calls and the records at their fields,
    sequencing computes both sides to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches references of the tensor core only. -/
theorem ops_sub : (ops : List (HloOp τ sig (Elt F))).Forall fun op => op.bufs ⊆ tcRefs τ sig :=
  ⟨
    nullary_bufs_sub .., unary_bufs_sub .., unary_bufs_sub .., unary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., nullary_bufs_sub ..,
    unary_bufs_sub .., binary_bufs_sub .., binary_bufs_sub .., nullary_bufs_sub .., unary_bufs_sub .., binary_bufs_sub ..,
    binary_bufs_sub .., nullary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., binary_bufs_sub ..⟩

end Cert.ReferenceIdeal.RefRun

end
-- ==== Proof.RefTerm.lean ====
/-
  The reference's result arrays as pure functions of its argument arrays.

  The reference pads the voltage array by one cell on every side, mirroring about the edge row and the edge column
  (the cell beyond the edge repeats the cell one step inside it), takes the five-point Laplacian as four shifted
  windows of the padded array less four times the array, and then updates the four fields pointwise.
  Each function below is one stretch of that computation, spelt with the operations the program names.
-/
import proofs.«119271_j59382217834966_2_alg».proof.ReferenceIdeal

noncomputable section

namespace Cert.ReferenceIdeal.RefTerm

open Cert.ReferenceIdeal Idealize.ShloMosaic

variable {F : FTy → Type} [FloatOps F] [Facts]
open Facts₀ Facts

/-- A 4096 × 4096 array of floats. -/
abbrev Arr (F : FTy → Type) := (⟨S4096x4096, .f32⟩ : BufTy).Contents (Elt F)

/-- The scalar constant with bit pattern `w` repeated over the whole array. -/
def splat (w : BitVec 32) : Arr F :=
  broadcastInDim S4096x4096 ![] bcast_S_S4096x4096 (constant (F := F) S_ .f32 w)

/-- The array with row 1 put above row 0: 4097 rows. -/
def rowsAbove (a : Arr F) : (⟨S4097x4096, .f32⟩ : BufTy).Contents (Elt F) :=
  concatenate S4097x4096 0
    [⟨S1x4096, Host.reverse [0] (extractStridedSlice S1x4096 ![1, 0] a slices_S4096x4096_S1x4096_1_0)⟩, ⟨S4096x4096, a⟩]
    concatenates_S1x4096_S4096x4096_S4097x4096_d0

/-- … and row 4094 put below row 4095: 4098 rows. -/
def rowsPadded (a : Arr F) : (⟨S4098x4096, .f32⟩ : BufTy).Contents (Elt F) :=
  concatenate S4098x4096 0
    [⟨S4097x4096, rowsAbove a⟩, ⟨S1x4096, Host.reverse [0] (extractStridedSlice S1x4096 ![4095, 0] (rowsAbove a) slices_S4097x4096_S1x4096_4095_0)⟩]
    concatenates_S4097x4096_S1x4096_S4098x4096_d0

/-- The row-padded array with column 1 put left of column 0: 4097 columns. -/
def colsLeft (a : Arr F) : (⟨S4098x4097, .f32⟩ : BufTy).Contents (Elt F) :=
  concatenate S4098x4097 1
    [⟨S4098x1, Host.reverse [1] (extractStridedSlice S4098x1 ![0, 1] (rowsPadded a) slices_S4098x4096_S4098x1_0_1)⟩, ⟨S4098x4096, rowsPadded a⟩]
    concatenates_S4098x1_S4098x4096_S4098x4097_d1

/-- … and column 4094 put right of column 4095: the mirrored padding, 4098 × 4098. -/
def padded (a : Arr F) : (⟨S4098x4098, .f32⟩ : BufTy).Contents (Elt F) :=
  concatenate S4098x4098 1
    [⟨S4098x4097, colsLeft a⟩, ⟨S4098x1, Host.reverse [1] (extractStridedSlice S4098x1 ![0, 4095] (colsLeft a) slices_S4098x4097_S4098x1_0_4095)⟩]
    concatenates_S4098x4097_S4098x1_S4098x4098_d1

/-- The five-point Laplacian: the cells below, above, right and left of each cell, less four times the cell. -/
def lap (a : Arr F) : Arr F :=
  subf
    (addf
      (addf
        (addf (extractStridedSlice S4096x4096 ![2, 1] (padded a) slices_S4098x4098_S4096x4096_2_1)
          (extractStridedSlice S4096x4096 ![0, 1] (padded a) slices_S4098x4098_S4096x4096_0_1))
        (extractStridedSlice S4096x4096 ![1, 2] (padded a) slices_S4098x4098_S4096x4096_1_2))
      (extractStridedSlice S4096x4096 ![1, 0] (padded a) slices_S4098x4098_S4096x4096_1_0))
    (mulf (splat 0x40800000#32) a)

/-- The new voltage: tanh (v + 0.1 · (0.5 · lap v + 0.1 · s − 0.05 · p + 0.08 · q)), the constants the f32 words. -/
def newV (v s p q : Arr F) : Arr F :=
  Host.tanh
    (addf v
      (mulf (splat 0x3DCCCCCD#32)
        (addf
          (subf (addf (mulf (splat 0x3F000000#32) (lap v)) (mulf (splat 0x3DCCCCCD#32) s)) (mulf (splat 0x3D4CCCCD#32) p))
          (mulf (splat 0x3DA3D70A#32) q))))

/-- max (x, 0). -/
def relu (x : Arr F) : Arr F := maximumf x (splat 0x00000000#32)

/-- The new sodium: 0.95 · s + 0.05 · max (v', 0). -/
def newS (s nv : Arr F) : Arr F := addf (mulf s (splat 0x3F733333#32)) (mulf (splat 0x3D4CCCCD#32) (relu nv))

/-- The new potassium: 0.95 · p + 0.05 · max (−v', 0). -/
def newP (p nv : Arr F) : Arr F := addf (mulf p (splat 0x3F733333#32)) (mulf (splat 0x3D4CCCCD#32) (relu (Host.negf nv)))

/-- The new calcium: 0.95 · q + 0.05 · |v'|. -/
def newQ (q nv : Arr F) : Arr F := addf (mulf q (splat 0x3F733333#32)) (mulf (splat 0x3D4CCCCD#32) (Host.absf nv))

end Cert.ReferenceIdeal.RefTerm

end
-- ==== Proof.Ref.Run.lean ====
/-
  The run of the reference program: from any memory, every weakly fair execution of @main ends with each of the four
  result arrays at the composed term of the four argument arrays (the new voltage, sodium, potassium and calcium of
  RefTerm.lean) and the arguments unchanged.

  The contents of a buffer after the 77 operations are a computation: each operation rewrites its own result buffer to
  its function of the contents of its operand buffers and leaves every other buffer alone. Read back from a result
  buffer this composes the operations' functions along the program's data flow, and the composition is the RefTerm
  term literally: the array operations are never opened.
-/
import proofs.«119271_j59382217834966_2_alg».proof.Proof.Ref.Ops
import proofs.«119271_j59382217834966_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The arguments are written by no operation -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-! ## The results

The target term is set aside under a name while the contents of the result buffer are read back, then the two are
compared with the array operations kept folded: the equation is between two compositions of the same operations in the
same order, and never looks inside one. -/

attribute [local irreducible] extractStridedSlice concatenate Host.reverse broadcastInDim constant addf mulf subf maximumf Host.tanh Host.negf Host.absf in
set_option maxRecDepth 8192 in
/-- The new voltage: the padding's sixteen operations, the four windows summed less four times the array, the update. -/
theorem v25_eq (V : Valuation τ sig (Elt F)) :
    after ops V (main_v25 : DevRef τ sig) = RefTerm.newV (V (main_arg0 : DevRef τ sig)) (V (main_arg1 : DevRef τ sig)) (V (main_arg2 : DevRef τ sig)) (V (main_arg3 : DevRef τ sig)) := by
  generalize hT : RefTerm.newV (V (main_arg0 : DevRef τ sig)) (V (main_arg1 : DevRef τ sig)) (V (main_arg2 : DevRef τ sig)) (V (main_arg3 : DevRef τ sig)) = T
  after_results_simp
  subst hT
  rfl

attribute [local irreducible] extractStridedSlice concatenate Host.reverse broadcastInDim constant addf mulf subf maximumf Host.tanh Host.negf Host.absf in
set_option maxRecDepth 8192 in
/-- The new sodium. -/
theorem v31_eq (V : Valuation τ sig (Elt F)) :
    after ops V (main_v31 : DevRef τ sig) = RefTerm.newS (V (main_arg1 : DevRef τ sig)) (RefTerm.newV (V (main_arg0 : DevRef τ sig)) (V (main_arg1 : DevRef τ sig)) (V (main_arg2 : DevRef τ sig)) (V (main_arg3 : DevRef τ sig))) := by
  generalize hT : RefTerm.newS (V (main_arg1 : DevRef τ sig)) (RefTerm.newV (V (main_arg0 : DevRef τ sig)) (V (main_arg1 : DevRef τ sig)) (V (main_arg2 : DevRef τ sig)) (V (main_arg3 : DevRef τ sig))) = T
  after_results_simp
  subst hT
  rfl

attribute [local irreducible] extractStridedSlice concatenate Host.reverse broadcastInDim constant addf mulf subf maximumf Host.tanh Host.negf Host.absf in
set_option maxRecDepth 8192 in
/-- The new potassium. -/
theorem v38_eq (V : Valuation τ sig (Elt F)) :
    after ops V (main_v38 : DevRef τ sig) = RefTerm.newP (V (main_arg2 : DevRef τ sig)) (RefTerm.newV (V (main_arg0 : DevRef τ sig)) (V (main_arg1 : DevRef τ sig)) (V (main_arg2 : DevRef τ sig)) (V (main_arg3 : DevRef τ sig))) := by
  generalize hT : RefTerm.newP (V (main_arg2 : DevRef τ sig)) (RefTerm.newV (V (main_arg0 : DevRef τ sig)) (V (main_arg1 : DevRef τ sig)) (V (main_arg2 : DevRef τ sig)) (V (main_arg3 : DevRef τ sig))) = T
  after_results_simp
  subst hT
  rfl

attribute [local irreducible] extractStridedSlice concatenate Host.reverse broadcastInDim constant addf mulf subf maximumf Host.tanh Host.negf Host.absf in
set_option maxRecDepth 8192 in
/-- The new calcium. -/
theorem v44_eq (V : Valuation τ sig (Elt F)) :
    after ops V (main_v44 : DevRef τ sig) = RefTerm.newQ (V (main_arg3 : DevRef τ sig)) (RefTerm.newV (V (main_arg0 : DevRef τ sig)) (V (main_arg1 : DevRef τ sig)) (V (main_arg2 : DevRef τ sig)) (V (main_arg3 : DevRef τ sig))) := by
  generalize hT : RefTerm.newQ (V (main_arg3 : DevRef τ sig)) (RefTerm.newV (V (main_arg0 : DevRef τ sig)) (V (main_arg1 : DevRef τ sig)) (V (main_arg2 : DevRef τ sig)) (V (main_arg3 : DevRef τ sig))) = T
  after_results_simp
  subst hT
  rfl

/-! ## The run -/

/-- On every device, for any float values, from any memory with zero counters: every weakly fair execution of @main
    terminates with the four results at the composed terms of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = RefTerm.newV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v31) = RefTerm.newS (m ((c.tc : Thread nD τ).loc main_arg1)) (RefTerm.newV (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v38) = RefTerm.newP (m ((c.tc : Thread nD τ).loc main_arg2)) (RefTerm.newV (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v44) = RefTerm.newQ (m ((c.tc : Thread nD τ).loc main_arg3)) (RefTerm.newV (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v25).trans (v25_eq (launchContents m c)),
      (h c main_v31).trans (v31_eq (launchContents m c)),
      (h c main_v38).trans (v38_eq (launchContents m c)),
      (h c main_v44).trans (v44_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.RefRun

end
-- ==== Proof.RefValue.Pad.lean ====
/-
  The mirrored padding read at an index.

  The padded array is built in four steps: row 1 is put above row 0, row 4094 below row 4095, then the same with
  columns. Each step is a two-piece concatenation of the array with a one-row (one-column) slice of it, reversed along
  the axis on which it has a single cell, which changes nothing. Read at row R and column C, the result is the array
  at the mirrored coordinates: 0 reads 1, 4097 reads 4094, any other K reads K − 1.
-/
import proofs.«119271_j59382217834966_2_alg».proof.Proof.RefTerm
import Idealize.ShloMosaic.Lib.ValueLayout

noncomputable section

namespace Cert.ReferenceIdeal.RefValue

open Cert.ReferenceIdeal Idealize.ShloMosaic Idealize.ShloMosaic.ValueIdx

variable [Facts]
open Facts₀ Facts

/-- The coordinate of the array that coordinate K of the padded array reads. -/
def mirror (K : Fin 4098) : Fin 4096 :=
  ⟨if K.val = 0 then 1 else if K.val = 4097 then 4094 else K.val - 1, by
    have := K.isLt
    split
    · omega
    · split <;> omega⟩

theorem mirror_val (K : Fin 4098) :
    (mirror K).val = if K.val = 0 then 1 else if K.val = 4097 then 4094 else K.val - 1 := rfl

/-- The coordinate read after the first step alone (a cell put before cell 0): 0 reads 1, any other K reads K − 1. -/
def mirrorLo (K : Fin 4097) : Fin 4096 :=
  ⟨if K.val = 0 then 1 else K.val - 1, by have := K.isLt; split <;> omega⟩

theorem mirrorLo_val (K : Fin 4097) : (mirrorLo K).val = if K.val = 0 then 1 else K.val - 1 := rfl

section Reverse
variable {α : Type}

/-- Reversing a one-row array along its rows changes nothing. -/
theorem reverse_rows_one {n : Nat} (x : (⟨2, ![1, n]⟩ : Shape).Idx → α) (r : Fin 1) (c : Fin n) :
    Host.reverse (s := ⟨2, ![1, n]⟩) [0] x (ix2 r c) = x (ix2 r c) := by
  unfold Host.reverse
  refine congrArg x (funext fun a => ?_)
  match a with
  | ⟨0, h0⟩ =>
    have hm : (⟨0, h0⟩ : Fin (Shape.rank ⟨2, ![1, n]⟩)) ∈ [(0 : Fin (Shape.rank ⟨2, ![1, n]⟩))] :=
      List.mem_singleton.2 rfl
    rw [if_pos hm]
    exact Fin.ext (by have := r.isLt; show 1 - (r.val + 1) = r.val; omega)
  | ⟨1, h1⟩ =>
    have hm : ¬ (⟨1, h1⟩ : Fin (Shape.rank ⟨2, ![1, n]⟩)) ∈ [(0 : Fin (Shape.rank ⟨2, ![1, n]⟩))] :=
      fun h => (show (1 : Nat) ≠ 0 by decide) (congrArg Fin.val (List.mem_singleton.1 h))
    rw [if_neg hm]

/-- Reversing a one-column array along its columns changes nothing. -/
theorem reverse_cols_one {n : Nat} (x : (⟨2, ![n, 1]⟩ : Shape).Idx → α) (r : Fin n) (c : Fin 1) :
    Host.reverse (s := ⟨2, ![n, 1]⟩) [1] x (ix2 r c) = x (ix2 r c) := by
  unfold Host.reverse
  refine congrArg x (funext fun a => ?_)
  match a with
  | ⟨0, h0⟩ =>
    have hm : ¬ (⟨0, h0⟩ : Fin (Shape.rank ⟨2, ![n, 1]⟩)) ∈ [(1 : Fin (Shape.rank ⟨2, ![n, 1]⟩))] :=
      fun h => (show (0 : Nat) ≠ 1 by decide) (congrArg Fin.val (List.mem_singleton.1 h))
    rw [if_neg hm]
  | ⟨1, h1⟩ =>
    have hm : (⟨1, h1⟩ : Fin (Shape.rank ⟨2, ![n, 1]⟩)) ∈ [(1 : Fin (Shape.rank ⟨2, ![n, 1]⟩))] :=
      List.mem_singleton.2 rfl
    rw [if_pos hm]
    exact Fin.ext (by have := c.isLt; show 1 - (c.val + 1) = c.val; omega)

end Reverse

variable {F : FTy → Type} [FloatOps F]

/-- Row 1 above row 0: row R reads row 1 when R = 0, row R − 1 otherwise. -/
theorem rowsAbove_apply (a : RefTerm.Arr F) (R : Fin 4097) (c : Fin 4096) :
    RefTerm.rowsAbove a (ix2 R c) = a (ix2 (mirrorLo R) c) := by
  unfold RefTerm.rowsAbove
  by_cases hR : R.val = 0
  · refine (concatenate_pair_apply_left (t := S4097x4096) (s₁ := S1x4096) (s₂ := S4096x4096) 0 _ _ _ (ix2 R c) rfl
      (ix2 (0 : Fin 1) c) (fun b => ?_)).trans ?_
    · match b with
      | ⟨0, _⟩ => exact hR.symm
      | ⟨1, _⟩ => rfl
    · refine (reverse_rows_one _ 0 c).trans ?_
      exact slice2_axis0_apply 1 a _ 0 c (mirrorLo R) (by rw [mirrorLo_val, if_pos hR]; rfl)
  · refine (concatenate_pair_apply_right (t := S4097x4096) (s₁ := S1x4096) (s₂ := S4096x4096) 0 _ _ _ (ix2 R c) rfl rfl
      (ix2 (mirrorLo R) c) (fun b hb => ?_) ?_)
    · match b with
      | ⟨0, _⟩ => exact absurd rfl hb
      | ⟨1, _⟩ => rfl
    · show (mirrorLo R).val + 1 = R.val
      rw [mirrorLo_val, if_neg hR]; omega

/-- … and row 4094 below row 4095: row R of the row-padded array reads the mirrored row. -/
theorem rowsPadded_apply (a : RefTerm.Arr F) (R : Fin 4098) (c : Fin 4096) :
    RefTerm.rowsPadded a (ix2 R c) = a (ix2 (mirror R) c) := by
  unfold RefTerm.rowsPadded
  by_cases hR : R.val < 4097
  · refine (concatenate_pair_apply_left (t := S4098x4096) (s₁ := S4097x4096) (s₂ := S1x4096) 0 _ _ _ (ix2 R c) rfl
      (ix2 (⟨R.val, hR⟩ : Fin 4097) c) (fun b => ?_)).trans ?_
    · match b with
      | ⟨0, _⟩ => rfl
      | ⟨1, _⟩ => rfl
    · refine (rowsAbove_apply a ⟨R.val, hR⟩ c).trans (congrArg (fun k => a (ix2 k c)) (Fin.ext ?_))
      rw [mirrorLo_val, mirror_val]
      show (if R.val = 0 then 1 else R.val - 1) = _
      rw [if_neg (show ¬ R.val = 4097 by omega)]
  · have hR' : R.val = 4097 := by have := R.isLt; omega
    refine (concatenate_pair_apply_right (t := S4098x4096) (s₁ := S4097x4096) (s₂ := S1x4096) 0 _ _ _ (ix2 R c) rfl rfl
      (ix2 (0 : Fin 1) c) (fun b hb => ?_) ?_).trans ?_
    · match b with
      | ⟨0, _⟩ => exact absurd rfl hb
      | ⟨1, _⟩ => rfl
    · show 0 + 4097 = R.val
      omega
    · refine (reverse_rows_one _ 0 c).trans ?_
      refine (slice2_axis0_apply 4095 (RefTerm.rowsAbove a) _ 0 c (⟨4095, by omega⟩ : Fin 4097) rfl).trans ?_
      refine (rowsAbove_apply a ⟨4095, by omega⟩ c).trans (congrArg (fun k => a (ix2 k c)) (Fin.ext ?_))
      rw [mirrorLo_val, mirror_val, if_neg (show ¬ R.val = 0 by omega), if_pos hR']
      rfl

/-- Column 1 left of column 0 of the row-padded array. -/
theorem colsLeft_apply (a : RefTerm.Arr F) (R : Fin 4098) (C : Fin 4097) :
    RefTerm.colsLeft a (ix2 R C) = a (ix2 (mirror R) (mirrorLo C)) := by
  unfold RefTerm.colsLeft
  by_cases hC : C.val = 0
  · refine (concatenate_pair_apply_left (t := S4098x4097) (s₁ := S4098x1) (s₂ := S4098x4096) 1 _ _ _ (ix2 R C) rfl
      (ix2 R (0 : Fin 1)) (fun b => ?_)).trans ?_
    · match b with
      | ⟨0, _⟩ => rfl
      | ⟨1, _⟩ => exact hC.symm
    · refine (reverse_cols_one _ R 0).trans ?_
      refine (slice2_axis1_apply 1 (RefTerm.rowsPadded a) _ R 0 (mirrorLo C) ?_).trans (rowsPadded_apply a R (mirrorLo C))
      rw [mirrorLo_val, if_pos hC]; rfl
  · refine (concatenate_pair_apply_right (t := S4098x4097) (s₁ := S4098x1) (s₂ := S4098x4096) 1 _ _ _ (ix2 R C) rfl rfl
      (ix2 R (mirrorLo C)) (fun b hb => ?_) ?_).trans (rowsPadded_apply a R (mirrorLo C))
    · match b with
      | ⟨0, _⟩ => rfl
      | ⟨1, _⟩ => exact absurd rfl hb
    · show (mirrorLo C).val + 1 = C.val
      rw [mirrorLo_val, if_neg hC]; omega

/-- The padded array at row R and column C is the array at the mirrored row and column. -/
theorem padded_apply (a : RefTerm.Arr F) (R C : Fin 4098) :
    RefTerm.padded a (ix2 R C) = a (ix2 (mirror R) (mirror C)) := by
  unfold RefTerm.padded
  by_cases hC : C.val < 4097
  · refine (concatenate_pair_apply_left (t := S4098x4098) (s₁ := S4098x4097) (s₂ := S4098x1) 1 _ _ _ (ix2 R C) rfl
      (ix2 R (⟨C.val, hC⟩ : Fin 4097)) (fun b => ?_)).trans ?_
    · match b with
      | ⟨0, _⟩ => rfl
      | ⟨1, _⟩ => rfl
    · refine (colsLeft_apply a R ⟨C.val, hC⟩).trans (congrArg (fun k => a (ix2 (mirror R) k)) (Fin.ext ?_))
      rw [mirrorLo_val, mirror_val]
      show (if C.val = 0 then 1 else C.val - 1) = _
      rw [if_neg (show ¬ C.val = 4097 by omega)]
  · have hC' : C.val = 4097 := by have := C.isLt; omega
    refine (concatenate_pair_apply_right (t := S4098x4098) (s₁ := S4098x4097) (s₂ := S4098x1) 1 _ _ _ (ix2 R C) rfl rfl
      (ix2 R (0 : Fin 1)) (fun b hb => ?_) ?_).trans ?_
    · match b with
      | ⟨0, _⟩ => rfl
      | ⟨1, _⟩ => exact absurd rfl hb
    · show 0 + 4097 = C.val
      omega
    · refine (reverse_cols_one _ R 0).trans ?_
      refine (slice2_axis1_apply 4095 (RefTerm.colsLeft a) _ R 0 (⟨4095, by omega⟩ : Fin 4097) rfl).trans ?_
      refine (colsLeft_apply a R ⟨4095, by omega⟩).trans (congrArg (fun k => a (ix2 (mirror R) k)) (Fin.ext ?_))
      rw [mirrorLo_val, mirror_val, if_neg (show ¬ C.val = 0 by omega), if_pos hC']
      rfl

end Cert.ReferenceIdeal.RefValue

end
-- ==== Proof.RefValue.Fields.lean ====
/-
  The reference's four result arrays, read at an index, are the specification's.

  A window of the padded array at offset (dr, dc) reads, at (r, c), the array at the mirrored coordinates of
  (r + dr, c + dc); with offsets 2, 0 and 1 the mirrored coordinate is the next cell, the previous cell and the cell
  itself. So the four windows of the Laplacian are the cells below, above, right and left, and the rest of each
  result is pointwise arithmetic over the extended reals with the same constants on both sides.
-/
import proofs.«119271_j59382217834966_2_alg».proof.Proof.RefValue.Pad
import proofs.«119271_j59382217834966_2_alg».proof.Proof.Stencil

noncomputable section

namespace Cert.ReferenceIdeal.RefValue

open Cert.ReferenceIdeal Idealize.ShloMosaic Idealize.ShloMosaic.ValueIdx

variable [Facts]
open Facts₀ Facts

/-! ## The mirrored coordinate of a shifted cell -/

/-- Two past the pad: the next cell, mirrored at the far edge. -/
theorem mirror_next (r : Fin 4096) (R : Fin 4098) (h : R.val = 2 + r.val) : mirror R = Cert.Stencil.next r := by
  apply Fin.ext
  rw [mirror_val, Cert.Stencil.next_val]
  have := r.isLt
  by_cases h1 : r.val = 4095
  · rw [if_neg (by omega), if_pos (by omega), if_pos h1]
  · rw [if_neg (by omega), if_neg (by omega), if_neg h1]; omega

/-- Level with the pad: the previous cell, mirrored at the near edge. -/
theorem mirror_prev (r : Fin 4096) (R : Fin 4098) (h : R.val = 0 + r.val) : mirror R = Cert.Stencil.prev r := by
  apply Fin.ext
  rw [mirror_val, Cert.Stencil.prev_val]
  have := r.isLt
  by_cases h1 : r.val = 0
  · rw [if_pos (by omega), if_pos h1]
  · rw [if_neg (by omega), if_neg (by omega), if_neg h1]; omega

/-- One past the pad: the cell itself. -/
theorem mirror_self (r : Fin 4096) (R : Fin 4098) (h : R.val = 1 + r.val) : mirror R = r := by
  apply Fin.ext
  rw [mirror_val]
  have := r.isLt
  rw [if_neg (by omega), if_neg (by omega)]; omega

/-! ## A window of the padded array -/

/-- The 4096 × 4096 window of the padded array at offset (dr, dc), read at (r, c). -/
theorem window_apply (a : RefTerm.Arr Ideal) (dr dc : Nat) (h : S4098x4098.Slices ![dr, dc] S4096x4096)
    (r c : Fin 4096) (R C : Fin 4098) (hR : R.val = dr + r.val) (hC : C.val = dc + c.val) :
    extractStridedSlice S4096x4096 ![dr, dc] (RefTerm.padded a) h (ix2 r c) = a (ix2 (mirror R) (mirror C)) :=
  (extractStridedSlice_apply _ _ h (ix2 r c) (ix2 R C) (fun ax => by
    match ax with
    | ⟨0, _⟩ => exact hR
    | ⟨1, _⟩ => exact hC)).trans (padded_apply a R C)

/-- A repeated constant at an index is the real number its word denotes. -/
theorem splat_apply (w : BitVec 32) (j : S4096x4096.Idx) :
    RefTerm.splat (F := Ideal) w j = Ideal.ofBits .f32 w := rfl

/-! ## The Laplacian -/

theorem lap_apply (a : RefTerm.Arr Ideal) (r c : Fin 4096) :
    RefTerm.lap a (ix2 r c) = Cert.Stencil.lapAt a r c := by
  have hr := r.isLt
  have hc := c.isLt
  have e1 := window_apply a 2 1 slices_S4098x4098_S4096x4096_2_1 r c ⟨2 + r.val, by omega⟩ ⟨1 + c.val, by omega⟩ rfl rfl
  have e2 := window_apply a 0 1 slices_S4098x4098_S4096x4096_0_1 r c ⟨0 + r.val, by omega⟩ ⟨1 + c.val, by omega⟩ rfl rfl
  have e3 := window_apply a 1 2 slices_S4098x4098_S4096x4096_1_2 r c ⟨1 + r.val, by omega⟩ ⟨2 + c.val, by omega⟩ rfl rfl
  have e4 := window_apply a 1 0 slices_S4098x4098_S4096x4096_1_0 r c ⟨1 + r.val, by omega⟩ ⟨0 + c.val, by omega⟩ rfl rfl
  rw [mirror_next r _ rfl, mirror_self c _ rfl] at e1
  rw [mirror_prev r _ rfl, mirror_self c _ rfl] at e2
  rw [mirror_self r _ rfl, mirror_next c _ rfl] at e3
  rw [mirror_self r _ rfl, mirror_prev c _ rfl] at e4
  unfold Cert.Stencil.lapAt Cert.Stencil.c4
  rw [← e1, ← e2, ← e3, ← e4]
  rfl

/-! ## The four fields -/

theorem newV_apply (v s p q : RefTerm.Arr Ideal) (r c : Fin 4096) :
    RefTerm.newV v s p q (ix2 r c) = Cert.Stencil.voltAt v s p q r c := by
  unfold Cert.Stencil.voltAt Cert.Stencil.cTenth Cert.Stencil.cHalf Cert.Stencil.cTwentieth Cert.Stencil.cEight
  rw [← lap_apply]
  rfl

theorem newV_eq (v s p q : RefTerm.Arr Ideal) : RefTerm.newV v s p q = Cert.Stencil.newV v s p q := by
  funext j
  obtain ⟨r, c, rfl⟩ : ∃ (r c : Fin 4096), j = ix2 r c := ⟨j 0, j 1, eq_ix2 j⟩
  exact newV_apply v s p q r c

theorem newS_eq (v s p q : RefTerm.Arr Ideal) :
    RefTerm.newS s (RefTerm.newV v s p q) = Cert.Stencil.newS v s p q := by
  funext j
  obtain ⟨r, c, rfl⟩ : ∃ (r c : Fin 4096), j = ix2 r c := ⟨j 0, j 1, eq_ix2 j⟩
  show _ = Cert.Stencil.sodAt v s p q r c
  unfold Cert.Stencil.sodAt Cert.Stencil.cKeep Cert.Stencil.cTwentieth Cert.Stencil.cZero
  rw [← newV_apply]
  rfl

theorem newP_eq (v s p q : RefTerm.Arr Ideal) :
    RefTerm.newP p (RefTerm.newV v s p q) = Cert.Stencil.newP v s p q := by
  funext j
  obtain ⟨r, c, rfl⟩ : ∃ (r c : Fin 4096), j = ix2 r c := ⟨j 0, j 1, eq_ix2 j⟩
  show _ = Cert.Stencil.potAt v s p q r c
  unfold Cert.Stencil.potAt Cert.Stencil.cKeep Cert.Stencil.cTwentieth Cert.Stencil.cZero
  rw [← newV_apply]
  rfl

theorem newQ_eq (v s p q : RefTerm.Arr Ideal) :
    RefTerm.newQ q (RefTerm.newV v s p q) = Cert.Stencil.newQ v s p q := by
  funext j
  obtain ⟨r, c, rfl⟩ : ∃ (r c : Fin 4096), j = ix2 r c := ⟨j 0, j 1, eq_ix2 j⟩
  show _ = Cert.Stencil.calAt v s p q r c
  unfold Cert.Stencil.calAt Cert.Stencil.cKeep Cert.Stencil.cTwentieth
  rw [← newV_apply]
  rfl

end Cert.ReferenceIdeal.RefValue

end
-- ==== Proof.RefValue.lean ====
/-
  The reference's result arrays are the specification's: the mirrored padding read at an index (RefValue/Pad.lean),
  then the Laplacian and the four fields (RefValue/Fields.lean: newV_eq, newS_eq, newP_eq, newQ_eq).
-/
import proofs.«119271_j59382217834966_2_alg».proof.Proof.RefValue.Pad
import proofs.«119271_j59382217834966_2_alg».proof.Proof.RefValue.Fields
-- ==== Proof.lean ====
/-
  The claim: the tiled bioelectric-field kernel and its reference compute the same four arrays over the extended reals.

  Both programs take one step of the field update (module Stencil): a five-point Laplacian of the voltage with the grid
  mirrored about its edges, a tanh of the voltage plus a weighted sum, and three pointwise relaxations.

  * The reference pads the voltage by a mirrored border (slices, reversals of one-row and one-column pieces,
    concatenations), reads the four neighbours as shifted windows of the padded array, and works on whole arrays.
    Its run (Ref/Run) ends with its results at those operations' terms (RefTerm), which are the specification's
    arrays cell by cell (RefValue).
  * The kernel walks 32 tiles of 128 rows. It is handed the voltage three times — the tile, the eight rows ending
    just above it and the eight rows beginning just below it — so that the rows next to the tile are at hand; at the
    grid's first and last tile it mirrors from the tile itself. Its frame (K/, KI/) is the pipeline's launch with
    the voltage array's share dealt to the three windows that read it; the block each point writes back is the
    specification's tile (KI/Cell, KI/Tile), and the tiles cover the arrays (KI/Whole).

  No law of arithmetic beyond `0 − x = −x` is used: the two programs add the same terms in the same order with the
  same single-precision constants, so nothing depends on the inputs being finite.
-/
import proofs.«119271_j59382217834966_2_alg».proof.Defs
import proofs.«119271_j59382217834966_2_alg».proof.Proof.Gen.Kernel
import proofs.«119271_j59382217834966_2_alg».proof.Proof.Gen.KernelIdeal
import proofs.«119271_j59382217834966_2_alg».proof.Proof.Gen.ReferenceIdeal
import proofs.«119271_j59382217834966_2_alg».proof.Proof.Gen.Pre_finite_inputs
import proofs.«119271_j59382217834966_2_alg».proof.Proof.K.Frame
import proofs.«119271_j59382217834966_2_alg».proof.Proof.KI.Whole
import proofs.«119271_j59382217834966_2_alg».proof.Proof.Ref.Run
import proofs.«119271_j59382217834966_2_alg».proof.Proof.RefValue

noncomputable section

namespace Cert.Proof

open Idealize.ShloMosaic Idealize.SL.Sem

/-- The word-level kernel runs and leaves its arguments alone. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference's run, its results dropped. -/
theorem frame_ri : Cert.frame_ReferenceIdeal := fun m ρ _ =>
  (θ_run Cert.ReferenceIdeal.defs _ _).mono
    (fun _ h c => ⟨(h c).2.2.2.2.1, (h c).2.2.2.2.2.1, (h c).2.2.2.2.2.2.1, (h c).2.2.2.2.2.2.2⟩)
    (Cert.ReferenceIdeal.RefRun.run (F := Ideal) m ρ)

/-- The ideal pass rewrote nothing. -/
theorem preserves : Cert.preserves_Kernel_KernelIdeal := trivial

/-- Both runs end with the specification's four arrays of the (agreeing) argument arrays. -/
theorem algebraic : Cert.algebraic_KernelIdeal_ReferenceIdeal := by
  intro m ρ m' ρ' _ hagree
  refine ⟨fun c => Cert.KernelIdeal.Whole.specV m c, fun c => Cert.KernelIdeal.Whole.specS m c,
    fun c => Cert.KernelIdeal.Whole.specP m c, fun c => Cert.KernelIdeal.Whole.specQ m c,
    Cert.KernelIdeal.Whole.run m ρ, ?_⟩
  refine (θ_run Cert.ReferenceIdeal.defs _ _).mono (fun _ h c => ?_) (Cert.ReferenceIdeal.RefRun.run (F := Ideal) m' ρ')
  obtain ⟨h0, h1, h2, h3, k0, k1, k2, k3⟩ := h c
  obtain ⟨a0, a1, a2, a3⟩ := hagree c
  refine ⟨?_, ?_, ?_, ?_, k0, k1, k2, k3⟩
  · exact h0.trans ((Cert.ReferenceIdeal.RefValue.newV_eq _ _ _ _).trans (by rw [a0, a1, a2, a3]))
  · exact h1.trans ((Cert.ReferenceIdeal.RefValue.newS_eq _ _ _ _).trans (by rw [a0, a1, a2, a3]))
  · exact h2.trans ((Cert.ReferenceIdeal.RefValue.newP_eq _ _ _ _).trans (by rw [a0, a1, a2, a3]))
  · exact h3.trans ((Cert.ReferenceIdeal.RefValue.newQ_eq _ _ _ _).trans (by rw [a0, a1, a2, a3]))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
